-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048 : Shape := ⟨2, ![8, 2048]⟩
abbrev S8x2048x128 : Shape := ⟨3, ![8, 2048, 128]⟩
abbrev S8x128 : Shape := ⟨2, ![8, 128]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S8x2048x128 : S_.BroadcastsInDim S8x2048x128 (![] : Fin 0 → Fin S8x2048x128.rank)
  reducesTo_S8x2048x128_S_d0_1_2 : S8x2048x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x2048 .f32) (main_arg5 : FVec F S8x2048 .f32) (main_arg6 : FVec F S8x128 .f32) (main_v13 : IVec S_ 1) (main_v16 : IVec S8x2048x128 1) : IVec S_ 1 :=
  let main_c_5 : IVec S_ 1 := constantI S_ 1 1#1
  let main_v17 : IVec S_ 1 := (fun x v => Host.reduce IntOp.andi x v reducesTo_S8x2048x128_S_d0_1_2 h_S_) main_v16 main_c_5
  let main_v18 : IVec S_ 1 := andi main_v13 main_v17
  let main_v19 : FVec F S8x2048 .f32 := Host.absf main_arg4
  let main_cst_6 : FVec F S_ .f32 := constant S_ .f32 0x7F800000#32
  let main_v20 : FVec F S8x2048 .f32 := broadcastInDim S8x2048 ![] bcast_S_S8x2048 main_cst_6
  let main_v21 : IVec S8x2048 1 := cmpf .olt main_v19 main_v20
  let main_c_7 : IVec S_ 1 := constantI S_ 1 1#1
  let main_v22 : IVec S_ 1 := (fun x v => Host.reduce IntOp.andi x v reducesTo_S8x2048_S_d0_1 h_S_) main_v21 main_c_7
  let main_v23 : IVec S_ 1 := andi main_v18 main_v22
  let main_v24 : FVec F S8x2048 .f32 := Host.absf main_arg5
  let main_cst_8 : FVec F S_ .f32 := constant S_ .f32 0x7F800000#32
  let main_v25 : FVec F S8x2048 .f32 := broadcastInDim S8x2048 ![] bcast_S_S8x2048 main_cst_8
  let main_v26 : IVec S8x2048 1 := cmpf .olt main_v24 main_v25
  let main_c_9 : IVec S_ 1 := constantI S_ 1 1#1
  let main_v27 : IVec S_ 1 := (fun x v => Host.reduce IntOp.andi x v reducesTo_S8x2048_S_d0_1 h_S_) main_v26 main_c_9
  let main_v28 : IVec S_ 1 := andi main_v23 main_v27
  let main_v29 : FVec F S8x128 .f32 := Host.absf main_arg6
  let main_cst_10 : FVec F S_ .f32 := constant S_ .f32 0x7F800000#32
  let main_v30 : FVec F S8x128 .f32 := broadcastInDim S8x128 ![] bcast_S_S8x128 main_cst_10
  let main_v31 : IVec S8x128 1 := cmpf .olt main_v29 main_v30
  let main_c_11 : IVec S_ 1 := constantI S_ 1 1#1
  let main_v32 : IVec S_ 1 := (fun x v => Host.reduce IntOp.andi x v reducesTo_S8x128_S_d0_1 h_S_) main_v31 main_c_11
  let main_v33 : IVec S_ 1 := andi main_v28 main_v32
  main_v33

def fn {F : FTy → Type} [FloatOps F] (main_arg0 : FVec F S8192x2048 .f32) (main_arg1 : FVec F S8x2048 .f32) (main_arg2 : FVec F S8x2048 .f32) (main_arg3 : FVec F S8x2048x128 .f32) (main_arg4 : FVec F S8x2048 .f32) (main_arg5 : FVec F S8x2048 .f32) (main_arg6 : FVec F S8x128 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  let main_v14 : FVec F S8x2048x128 .f32 := Host.absf main_arg3
  let main_cst_4 : FVec F S_ .f32 := constant S_ .f32 0x7F800000#32
  let main_v15 : FVec F S8x2048x128 .f32 := broadcastInDim S8x2048x128 ![] bcast_S_S8x2048x128 main_cst_4
  let main_v16 : IVec S8x2048x128 1 := cmpf .olt main_v14 main_v15
  fn_part1 (F := F) main_arg4 main_arg5 main_arg6 main_v13 main_v16
-- ==== Kernel.lean ====
abbrev S8192x2048 : Shape := ⟨2, ![8192, 2048]⟩
abbrev S8x2048 : Shape := ⟨2, ![8, 2048]⟩
abbrev S8x2048x128 : Shape := ⟨3, ![8, 2048, 128]⟩
abbrev S8x128 : Shape := ⟨2, ![8, 128]⟩
abbrev S8x2048x1 : Shape := ⟨3, ![8, 2048, 1]⟩
abbrev S1x2048x128 : Shape := ⟨3, ![1, 2048, 128]⟩
abbrev S1x2048x1 : Shape := ⟨3, ![1, 2048, 1]⟩
abbrev S2048x128 : Shape := ⟨2, ![2048, 128]⟩
abbrev S2048x1 : Shape := ⟨2, ![2048, 1]⟩
abbrev S128 : Shape := ⟨1, ![128]⟩
abbrev S1x128 : Shape := ⟨2, ![1, 128]⟩
abbrev S8x8192x2048 : Shape := ⟨3, ![8, 8192, 2048]⟩
abbrev S8x8192x128 : Shape := ⟨3, ![8, 8192, 128]⟩
abbrev S128x2048 : Shape := ⟨2, ![128, 2048]⟩
abbrev S8x128x2048 : Shape := ⟨3, ![8, 128, 2048]⟩
abbrev S8x128x128 : Shape := ⟨3, ![8, 128, 128]⟩
abbrev S128x1 : Shape := ⟨2, ![128, 1]⟩
abbrev S1x2048 : Shape := ⟨2, ![1, 2048]⟩
abbrev S2048 : Shape := ⟨1, ![2048]⟩
abbrev S1x128x2048 : Shape := ⟨3, ![1, 128, 2048]⟩
abbrev S128x128 : Shape := ⟨2, ![128, 128]⟩
abbrev S1x128x128 : Shape := ⟨3, ![1, 128, 128]⟩

abbrev nBuf : Space → Nat
  | .hbm => 13
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8x2048, .f32⟩
  | .hbm, ⟨2, _⟩ => ⟨S8x2048, .f32⟩
  | .hbm, ⟨3, _⟩ => ⟨S8x2048x128, .f32⟩
  | .hbm, ⟨4, _⟩ => ⟨S8x2048, .f32⟩
  | .hbm, ⟨5, _⟩ => ⟨S8x2048, .f32⟩
  | .hbm, ⟨6, _⟩ => ⟨S8x128, .f32⟩
  | .hbm, ⟨7, _⟩ => ⟨S8x2048x1, .f32⟩
  | .hbm, ⟨8, _⟩ => ⟨S8x2048x1, .f32⟩
  | .hbm, ⟨9, _⟩ => ⟨S8x2048x128, .f32⟩
  | .hbm, ⟨10, _⟩ => ⟨S8x8192x2048, .f32⟩
  | .hbm, ⟨11, _⟩ => ⟨S8x8192x128, .f32⟩
  | .hbm, ⟨12, _⟩ => ⟨S8x8192x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x1, .f32⟩
  | .local _ .vmem, ⟨3, _⟩ => ⟨S1x2048x1, .f32⟩
  | .local _ .vmem, ⟨4, _⟩ => ⟨S1x2048x1, .f32⟩
  | .local _ .vmem, ⟨5, _⟩ => ⟨S1x2048x1, .f32⟩
  | .local _ .vmem, ⟨6, _⟩ => ⟨S1x2048x128, .f32⟩
  | .local _ .vmem, ⟨7, _⟩ => ⟨S1x2048x128, .f32⟩
  | .local _ .vmem, ⟨8, _⟩ => ⟨S128x2048, .f32⟩
  | .local _ .vmem, ⟨9, _⟩ => ⟨S128x2048, .f32⟩
  | .local _ .vmem, ⟨10, _⟩ => ⟨S8x2048, .f32⟩
  | .local _ .vmem, ⟨11, _⟩ => ⟨S8x2048, .f32⟩
  | .local _ .vmem, ⟨12, _⟩ => ⟨S8x2048x128, .f32⟩
  | .local _ .vmem, ⟨13, _⟩ => ⟨S8x128, .f32⟩
  | .local _ .vmem, ⟨14, _⟩ => ⟨S8x128x2048, .f32⟩
  | .local _ .vmem, ⟨15, _⟩ => ⟨S8x128x2048, .f32⟩
  | .local _ .vmem, ⟨16, _⟩ => ⟨S8x128x128, .f32⟩
  | .local _ .vmem, ⟨17, _⟩ => ⟨S8x128x128, .f32⟩
  | .local _ .vmem, ⟨18, _⟩ => ⟨S8x128x128, .f32⟩
  | .local _ .vmem, ⟨19, _⟩ => ⟨S8x128x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x2048x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8x128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x128x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S8x2048_S8x2048x1 : S8x2048.ShapeCasts S8x2048x1
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  reduces_S2048x128_S128 : S2048x128.Reduces [0] S128
  shapeCasts_S128_S1x128 : S128.ShapeCasts S1x128
  broadcasts_S1x128_S2048x128 : S1x128.Broadcasts S2048x128
  broadcasts_S2048x1_S2048x128 : S2048x1.Broadcasts S2048x128
  shapeCasts_S2048x128_S1x2048x128 : S2048x128.ShapeCasts S1x2048x128
  inb_S128x2048_S128x2048_0_0 : ∀ a, (![0, 0] : Fin 2 → Nat) a + S128x2048.size a ≤ S128x2048.size a
  h_S128x2048 : 0 < S128x2048.numel
  reduces_S128x2048_S128 : S128x2048.Reduces [1] S128
  shapeCasts_S128_S128x1 : S128.ShapeCasts S128x1
  broadcasts_S128x1_S128x2048 : S128x1.Broadcasts S128x2048
  inb_S8x2048_S1x2048_0_0 : ∀ a, (![0, 0] : Fin 2 → Nat) a + S1x2048.size a ≤ S8x2048.size a
  h_S1x2048 : 0 < S1x2048.numel
  shapeCasts_S1x2048_S2048 : S1x2048.ShapeCasts S2048
  shapeCasts_S2048_S1x2048 : S2048.ShapeCasts S1x2048
  broadcasts_S1x2048_S128x2048 : S1x2048.Broadcasts S128x2048
  inb_S8x128x2048_S1x128x2048_0_0_0 : ∀ a, (![0, 0, 0] : Fin 3 → Nat) a + S1x128x2048.size a ≤ S8x128x2048.size a
  h_S1x128x2048 : 0 < S1x128x2048.numel
  shapeCasts_S1x128x2048_S128x2048 : S1x128x2048.ShapeCasts S128x2048
  shapeCasts_S128x2048_S1x128x2048 : S128x2048.ShapeCasts S1x128x2048
  bitsLt_bf16_f32 : FTy.bits .bf16 < FTy.bits .f32
  inb_S8x2048x128_S1x2048x128_0_0_0 : ∀ a, (![0, 0, 0] : Fin 3 → Nat) a + S1x2048x128.size a ≤ S8x2048x128.size a
  inb_S8x128_S1x128_0_0 : ∀ a, (![0, 0] : Fin 2 → Nat) a + S1x128.size a ≤ S8x128.size a
  h_S1x128 : 0 < S1x128.numel
  shapeCasts_S1x128_S128 : S1x128.ShapeCasts S128
  broadcasts_S1x128_S128x128 : S1x128.Broadcasts S128x128
  reduces_S128x128_S128 : S128x128.Reduces [1] S128
  broadcasts_S128x1_S128x128 : S128x1.Broadcasts S128x128
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  shapeCasts_S128x128_S1x128x128 : S128x128.ShapeCasts S1x128x128
  inb_S8x2048_S1x2048_1_0 : ∀ a, (![1, 0] : Fin 2 → Nat) a + S1x2048.size a ≤ S8x2048.size a
  inb_S8x128x2048_S1x128x2048_1_0_0 : ∀ a, (![1, 0, 0] : Fin 3 → Nat) a + S1x128x2048.size a ≤ S8x128x2048.size a
  inb_S8x2048x128_S1x2048x128_1_0_0 : ∀ a, (![1, 0, 0] : Fin 3 → Nat) a + S1x2048x128.size a ≤ S8x2048x128.size a
  inb_S8x128_S1x128_1_0 : ∀ a, (![1, 0] : Fin 2 → Nat) a + S1x128.size a ≤ S8x128.size a
  inb_S8x128x128_S1x128x128_1_0_0 : ∀ a, (![1, 0, 0] : Fin 3 → Nat) a + S1x128x128.size a ≤ S8x128x128.size a
  inb_S8x2048_S1x2048_2_0 : ∀ a, (![2, 0] : Fin 2 → Nat) a + S1x2048.size a ≤ S8x2048.size a
  inb_S8x128x2048_S1x128x2048_2_0_0 : ∀ a, (![2, 0, 0] : Fin 3 → Nat) a + S1x128x2048.size a ≤ S8x128x2048.size a
  inb_S8x2048x128_S1x2048x128_2_0_0 : ∀ a, (![2, 0, 0] : Fin 3 → Nat) a + S1x2048x128.size a ≤ S8x2048x128.size a
  inb_S8x128_S1x128_2_0 : ∀ a, (![2, 0] : Fin 2 → Nat) a + S1x128.size a ≤ S8x128.size a
  inb_S8x128x128_S1x128x128_2_0_0 : ∀ a, (![2, 0, 0] : Fin 3 → Nat) a + S1x128x128.size a ≤ S8x128x128.size a
  inb_S8x2048_S1x2048_3_0 : ∀ a, (![3, 0] : Fin 2 → Nat) a + S1x2048.size a ≤ S8x2048.size a
  inb_S8x128x2048_S1x128x2048_3_0_0 : ∀ a, (![3, 0, 0] : Fin 3 → Nat) a + S1x128x2048.size a ≤ S8x128x2048.size a
  inb_S8x2048x128_S1x2048x128_3_0_0 : ∀ a, (![3, 0, 0] : Fin 3 → Nat) a + S1x2048x128.size a ≤ S8x2048x128.size a
  inb_S8x128_S1x128_3_0 : ∀ a, (![3, 0] : Fin 2 → Nat) a + S1x128.size a ≤ S8x128.size a
  inb_S8x128x128_S1x128x128_3_0_0 : ∀ a, (![3, 0, 0] : Fin 3 → Nat) a + S1x128x128.size a ≤ S8x128x128.size a
  inb_S8x2048_S1x2048_4_0 : ∀ a, (![4, 0] : Fin 2 → Nat) a + S1x2048.size a ≤ S8x2048.size a
  inb_S8x128x2048_S1x128x2048_4_0_0 : ∀ a, (![4, 0, 0] : Fin 3 → Nat) a + S1x128x2048.size a ≤ S8x128x2048.size a
  inb_S8x2048x128_S1x2048x128_4_0_0 : ∀ a, (![4, 0, 0] : Fin 3 → Nat) a + S1x2048x128.size a ≤ S8x2048x128.size a
  inb_S8x128_S1x128_4_0 : ∀ a, (![4, 0] : Fin 2 → Nat) a + S1x128.size a ≤ S8x128.size a
  inb_S8x128x128_S1x128x128_4_0_0 : ∀ a, (![4, 0, 0] : Fin 3 → Nat) a + S1x128x128.size a ≤ S8x128x128.size a
  inb_S8x2048_S1x2048_5_0 : ∀ a, (![5, 0] : Fin 2 → Nat) a + S1x2048.size a ≤ S8x2048.size a
  inb_S8x128x2048_S1x128x2048_5_0_0 : ∀ a, (![5, 0, 0] : Fin 3 → Nat) a + S1x128x2048.size a ≤ S8x128x2048.size a
  inb_S8x2048x128_S1x2048x128_5_0_0 : ∀ a, (![5, 0, 0] : Fin 3 → Nat) a + S1x2048x128.size a ≤ S8x2048x128.size a
  inb_S8x128_S1x128_5_0 : ∀ a, (![5, 0] : Fin 2 → Nat) a + S1x128.size a ≤ S8x128.size a
  inb_S8x128x128_S1x128x128_5_0_0 : ∀ a, (![5, 0, 0] : Fin 3 → Nat) a + S1x128x128.size a ≤ S8x128x128.size a
  inb_S8x2048_S1x2048_6_0 : ∀ a, (![6, 0] : Fin 2 → Nat) a + S1x2048.size a ≤ S8x2048.size a
  inb_S8x128x2048_S1x128x2048_6_0_0 : ∀ a, (![6, 0, 0] : Fin 3 → Nat) a + S1x128x2048.size a ≤ S8x128x2048.size a
  inb_S8x2048x128_S1x2048x128_6_0_0 : ∀ a, (![6, 0, 0] : Fin 3 → Nat) a + S1x2048x128.size a ≤ S8x2048x128.size a
  inb_S8x128_S1x128_6_0 : ∀ a, (![6, 0] : Fin 2 → Nat) a + S1x128.size a ≤ S8x128.size a
  inb_S8x128x128_S1x128x128_6_0_0 : ∀ a, (![6, 0, 0] : Fin 3 → Nat) a + S1x128x128.size a ≤ S8x128x128.size a
  inb_S8x2048_S1x2048_7_0 : ∀ a, (![7, 0] : Fin 2 → Nat) a + S1x2048.size a ≤ S8x2048.size a
  inb_S8x128x2048_S1x128x2048_7_0_0 : ∀ a, (![7, 0, 0] : Fin 3 → Nat) a + S1x128x2048.size a ≤ S8x128x2048.size a
  inb_S8x2048x128_S1x2048x128_7_0_0 : ∀ a, (![7, 0, 0] : Fin 3 → Nat) a + S1x2048x128.size a ≤ S8x2048x128.size a
  inb_S8x128_S1x128_7_0 : ∀ a, (![7, 0] : Fin 2 → Nat) a + S1x128.size a ≤ S8x128.size a
  inb_S8x128x128_S1x128x128_7_0_0 : ∀ a, (![7, 0, 0] : Fin 3 → Nat) a + S1x128x128.size a ≤ S8x128x128.size a
  dot_S128x2048_S2048x128_S128x128_1_0_0_1_n_n_wf : DotDims.WF S128x2048 S2048x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S8x2048x1.size a
  hwx0_1 : ∀ i : grid0.Coords, EltTy.bits .f32 = 32 ∨ (Rect.block (s := S8x2048x1) S1x2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S8x2048x1.size a
  hwx0_2 : ∀ i : grid0.Coords, EltTy.bits .f32 = 32 ∨ (Rect.block (s := S8x2048x1) S1x2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S8x2048x128.size a
  hwx0_3 : ∀ i : grid0.Coords, EltTy.bits .f32 = 32 ∨ (Rect.block (s := S8x2048x128) S1x2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2048.size a ≤ S8192x2048.size a
  hwx1_0 : ∀ i : grid1.Coords, EltTy.bits .f32 = 32 ∨ (Rect.block (s := S8192x2048) S128x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x2048.size a ≤ S8x2048.size a
  hwx1_1 : ∀ i : grid1.Coords, EltTy.bits .f32 = 32 ∨ (Rect.block (s := S8x2048) S8x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x2048.size a ≤ S8x2048.size a
  hwx1_2 : ∀ i : grid1.Coords, EltTy.bits .f32 = 32 ∨ (Rect.block (s := S8x2048) S8x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x2048x128.size a ≤ S8x2048x128.size a
  hwx1_3 : ∀ i : grid1.Coords, EltTy.bits .f32 = 32 ∨ (Rect.block (s := S8x2048x128) S8x2048x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S8x128.size a
  hwx1_4 : ∀ i : grid1.Coords, EltTy.bits .f32 = 32 ∨ (Rect.block (s := S8x128) S8x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x128x2048.size a ≤ S8x8192x2048.size a
  hwx1_5 : ∀ i : grid1.Coords, EltTy.bits .f32 = 32 ∨ (Rect.block (s := S8x8192x2048) S8x128x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x128x128.size a ≤ S8x8192x128.size a
  hwx1_6 : ∀ i : grid1.Coords, EltTy.bits .f32 = 32 ∨ (Rect.block (s := S8x8192x128) S8x128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x128x128.size a ≤ S8x8192x128.size a
  hwx1_7 : ∀ i : grid1.Coords, EltTy.bits .f32 = 32 ∨ (Rect.block (s := S8x8192x128) S8x128x128.size (cc1_transform_7 i) (hinb1_7 i)).WholeWords (EltTy.packing .f32)

variable [Facts₀]

def dot_S128x2048_S2048x128_S128x128_1_0_0_1_n_n : DotDims S128x2048 S2048x128 S128x128 where
  lhsContracting := [1]
  rhsContracting := [0]
  lhsNonContracting := [0]
  rhsNonContracting := [1]
  lhsBatch := []
  rhsBatch := []
  wf := dot_S128x2048_S2048x128_S128x128_1_0_0_1_n_n_wf

abbrev win0_0 : Pipeline.Window sig grid0 :=
  Pipeline.Window.ofSpec (Memref.whole main_arg3) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S8x2048x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S8x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S8x128x2048.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S8x128x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v3_2) S8x128x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S8x2048 : Shape := ⟨2, ![8, 2048]⟩
abbrev S8x2048x128 : Shape := ⟨3, ![8, 2048, 128]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S8x1x2048 : Shape := ⟨3, ![8, 1, 2048]⟩
abbrev S1x8192x2048 : Shape := ⟨3, ![1, 8192, 2048]⟩
abbrev S8x8192x2048 : Shape := ⟨3, ![8, 8192, 2048]⟩
abbrev S8x128x2048 : Shape := ⟨3, ![8, 128, 2048]⟩
abbrev S8x128x1 : Shape := ⟨3, ![8, 128, 1]⟩
abbrev S8x8192x128 : Shape := ⟨3, ![8, 8192, 128]⟩
abbrev S8x1x128 : Shape := ⟨3, ![8, 1, 128]⟩
abbrev S8x8192 : Shape := ⟨2, ![8, 8192]⟩
abbrev S8x8192x1 : Shape := ⟨3, ![8, 8192, 1]⟩

abbrev nBuf : Space → Nat
  | .hbm => 87
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048, .f32⟩
  | .hbm, ⟨2, _⟩ => ⟨S8x2048, .f32⟩
  | .hbm, ⟨3, _⟩ => ⟨S8x2048x128, .f32⟩
  | .hbm, ⟨4, _⟩ => ⟨S8x2048, .f32⟩
  | .hbm, ⟨5, _⟩ => ⟨S8x2048, .f32⟩
  | .hbm, ⟨6, _⟩ => ⟨S8x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S8x1x2048, .f32⟩
  | .hbm, ⟨31, _⟩ => ⟨S1x8192x2048, .f32⟩
  | .hbm, ⟨32, _⟩ => ⟨S8x8192x2048, .f32⟩
  | .hbm, ⟨33, _⟩ => ⟨S8x8192x2048, .f32⟩
  | .hbm, ⟨34, _⟩ => ⟨S8x8192x2048, .f32⟩
  | .hbm, ⟨35, _⟩ => ⟨S8x1x2048, .f32⟩
  | .hbm, ⟨36, _⟩ => ⟨S8x8192x2048, .f32⟩
  | .hbm, ⟨37, _⟩ => ⟨S8x8192x2048, .f32⟩
  | .hbm, ⟨38, _⟩ => ⟨S8x128x2048, .f32⟩
  | .hbm, ⟨39, _⟩ => ⟨S_, .f32⟩
  | .hbm, ⟨40, _⟩ => ⟨S8x128, .f32⟩
  | .hbm, ⟨41, _⟩ => ⟨S8x128x1, .f32⟩
  | .hbm, ⟨42, _⟩ => ⟨S_, .f32⟩
  | .hbm, ⟨43, _⟩ => ⟨S8x128x1, .f32⟩
  | .hbm, ⟨44, _⟩ => ⟨S8x128x1, .f32⟩
  | .hbm, ⟨45, _⟩ => ⟨S8x128x2048, .f32⟩
  | .hbm, ⟨46, _⟩ => ⟨S8x128x2048, .f32⟩
  | .hbm, ⟨47, _⟩ => ⟨S8x128x2048, .f32⟩
  | .hbm, ⟨48, _⟩ => ⟨S_, .f32⟩
  | .hbm, ⟨49, _⟩ => ⟨S8x128, .f32⟩
  | .hbm, ⟨50, _⟩ => ⟨S8x128x1, .f32⟩
  | .hbm, ⟨51, _⟩ => ⟨S_, .f32⟩
  | .hbm, ⟨52, _⟩ => ⟨S8x128x1, .f32⟩
  | .hbm, ⟨53, _⟩ => ⟨S8x128x1, .f32⟩
  | .hbm, ⟨54, _⟩ => ⟨S8x128x2048, .f32⟩
  | .hbm, ⟨55, _⟩ => ⟨S8x128x2048, .f32⟩
  | .hbm, ⟨56, _⟩ => ⟨S_, .f32⟩
  | .hbm, ⟨57, _⟩ => ⟨S8x128x1, .f32⟩
  | .hbm, ⟨58, _⟩ => ⟨S8x128x1, .f32⟩
  | .hbm, ⟨59, _⟩ => ⟨S8x128x1, .f32⟩
  | .hbm, ⟨60, _⟩ => ⟨S8x128x2048, .f32⟩
  | .hbm, ⟨61, _⟩ => ⟨S8x128x2048, .f32⟩
  | .hbm, ⟨62, _⟩ => ⟨S8x1x2048, .f32⟩
  | .hbm, ⟨63, _⟩ => ⟨S8x128x2048, .f32⟩
  | .hbm, ⟨64, _⟩ => ⟨S8x128x2048, .f32⟩
  | .hbm, ⟨65, _⟩ => ⟨S8x1x2048, .f32⟩
  | .hbm, ⟨66, _⟩ => ⟨S8x128x2048, .f32⟩
  | .hbm, ⟨67, _⟩ => ⟨S8x128x2048, .f32⟩
  | .hbm, ⟨68, _⟩ => ⟨S8x2048x128, .f32⟩
  | .hbm, ⟨69, _⟩ => ⟨S8x8192x128, .f32⟩
  | .hbm, ⟨70, _⟩ => ⟨S8x1x128, .f32⟩
  | .hbm, ⟨71, _⟩ => ⟨S8x8192x128, .f32⟩
  | .hbm, ⟨72, _⟩ => ⟨S8x8192x128, .f32⟩
  | .hbm, ⟨73, _⟩ => ⟨S_, .f32⟩
  | .hbm, ⟨74, _⟩ => ⟨S8x8192, .f32⟩
  | .hbm, ⟨75, _⟩ => ⟨S_, .f32⟩
  | .hbm, ⟨76, _⟩ => ⟨S8x8192, .f32⟩
  | .hbm, ⟨77, _⟩ => ⟨S8x8192, .f32⟩
  | .hbm, ⟨78, _⟩ => ⟨S8x8192x1, .f32⟩
  | .hbm, ⟨79, _⟩ => ⟨S8x8192x128, .f32⟩
  | .hbm, ⟨80, _⟩ => ⟨S8x8192x128, .f32⟩
  | .hbm, ⟨81, _⟩ => ⟨S8x8192x128, .f32⟩
  | .hbm, ⟨82, _⟩ => ⟨S_, .f32⟩
  | .hbm, ⟨83, _⟩ => ⟨S8x8192, .f32⟩
  | .hbm, ⟨84, _⟩ => ⟨S8x8192x1, .f32⟩
  | .hbm, ⟨85, _⟩ => ⟨S8x8192x128, .f32⟩
  | .hbm, ⟨86, _⟩ => ⟨S8x8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S8x2048_S8x1x2048_0_2 : S8x2048.BroadcastsInDim S8x1x2048 (![0, 2] : Fin 2 → Fin S8x1x2048.rank)
  bcast_S8192x2048_S1x8192x2048_1_2 : S8192x2048.BroadcastsInDim S1x8192x2048 (![1, 2] : Fin 2 → Fin S1x8192x2048.rank)
  bcast_S1x8192x2048_S8x8192x2048_0_1_2 : S1x8192x2048.BroadcastsInDim S8x8192x2048 (![0, 1, 2] : Fin 3 → Fin S8x8192x2048.rank)
  bcast_S8x1x2048_S8x8192x2048_0_1_2 : S8x1x2048.BroadcastsInDim S8x8192x2048 (![0, 1, 2] : Fin 3 → Fin S8x8192x2048.rank)
  transposes_S8x2048x128_S8x128x2048_0_2_1 : S8x2048x128.Transposes [0, 2, 1] S8x128x2048
  reducesTo_S8x128x2048_S8x128_d2 : S8x128x2048.ReducesTo [2] S8x128
  bcast_S8x128_S8x128x1_0_1 : S8x128.BroadcastsInDim S8x128x1 (![0, 1] : Fin 2 → Fin S8x128x1.rank)
  bcast_S_S8x128x1 : S_.BroadcastsInDim S8x128x1 (![] : Fin 0 → Fin S8x128x1.rank)
  bcast_S8x128x1_S8x128x2048_0_1_2 : S8x128x1.BroadcastsInDim S8x128x2048 (![0, 1, 2] : Fin 3 → Fin S8x128x2048.rank)
  bcast_S8x1x2048_S8x128x2048_0_1_2 : S8x1x2048.BroadcastsInDim S8x128x2048 (![0, 1, 2] : Fin 3 → Fin S8x128x2048.rank)
  transposes_S8x128x2048_S8x2048x128_0_2_1 : S8x128x2048.Transposes [0, 2, 1] S8x2048x128
  bcast_S8x128_S8x1x128_0_2 : S8x128.BroadcastsInDim S8x1x128 (![0, 2] : Fin 2 → Fin S8x1x128.rank)
  bcast_S8x1x128_S8x8192x128_0_1_2 : S8x1x128.BroadcastsInDim S8x8192x128 (![0, 1, 2] : Fin 3 → Fin S8x8192x128.rank)
  reducesTo_S8x8192x128_S8x8192_d2 : S8x8192x128.ReducesTo [2] S8x8192
  bcast_S_S8x8192 : S_.BroadcastsInDim S8x8192 (![] : Fin 0 → Fin S8x8192.rank)
  bcast_S8x8192_S8x8192x1_0_1 : S8x8192.BroadcastsInDim S8x8192x1 (![0, 1] : Fin 2 → Fin S8x8192x1.rank)
  bcast_S8x8192x1_S8x8192x128_0_1_2 : S8x8192x1.BroadcastsInDim S8x8192x128 (![0, 1, 2] : Fin 3 → Fin S8x8192x128.rank)
  dot_S8x8192x2048_S8x2048x128_S8x8192x128_2_1_1_2_0_0_wf : DotDims.WF S8x8192x2048 S8x2048x128 S8x8192x128 [2] [1] [1] [2] [0] [0]

variable [Facts₀]

def dot_S8x8192x2048_S8x2048x128_S8x8192x128_2_1_1_2_0_0 : DotDims S8x8192x2048 S8x2048x128 S8x8192x128 where
  lhsContracting := [2]
  rhsContracting := [1]
  lhsNonContracting := [1]
  rhsNonContracting := [2]
  lhsBatch := [0]
  rhsBatch := [0]
  wf := dot_S8x8192x2048_S8x2048x128_S8x8192x128_2_1_1_2_0_0_wf

class Facts : Prop extends Facts₀ where

variable [Facts]
-- ==== Proof.Spec.lean ====
/-
  The functions both programs compute, on the extended reals.

  A row is standardised over its 2048 entries: its mean is the sum divided by 2048, its variance the mean of the squared
  deviations, and entry `d` becomes `(f d − mean) · (var + ε)^(−1/2)`, with ε the value of the word `0x3727C5AC`.
  The outputs are
    newX[r, n, d]   = standardised row n of x, at d, times w[r, d], plus b[r, d];
    rwNorm[r, d, a] = standardised column a of W[r] (over its 2048 rows), at d, times g[r, d], plus c[r, d];
    logits[r, n, a] = Σ_k newX[r, n, k] · rwNorm[r, k, a] + bias[r, a];
    probs[r, n, a]  = exp(logits[r, n, a] − M) / Σ_a' exp(logits[r, n, a'] − M),  M the maximum of row (r, n) from −∞.
  Every step is written with the operations' own conventions on the extended reals (the quotient `Ideal.div`, the inverse
  square root `Ideal.rsqrt`, `Ideal.exp`), so that no law of arithmetic is used when a program is compared with them.
-/
import Idealize.ShloMosaic.Lib.ValueIdx
import Idealize.ShloMosaic.PureOps.Ideal.Laws

noncomputable section

namespace Cert.Spec

open Idealize.ShloMosaic Idealize.ShloMosaic.ValueIdx

/-- The divisor 2048, the variance offset, and −∞, as the extended reals their f32 words denote. -/
def extent : EReal := Ideal.ofBits .f32 0x45000000#32
def offset : EReal := Ideal.ofBits .f32 0x3727C5AC#32
def bottom : EReal := Ideal.ofBits .f32 0xFF800000#32

/-- The mean of 2048 entries. -/
def mean (f : Fin 2048 → EReal) : EReal := Ideal.div (∑ k : Fin 2048, f k) extent
/-- The mean of their squared deviations from the mean. -/
def var (f : Fin 2048 → EReal) : EReal := Ideal.div (∑ k : Fin 2048, (f k - mean f) * (f k - mean f)) extent
/-- Entry `d` standardised. -/
def normed (f : Fin 2048 → EReal) (d : Fin 2048) : EReal := (f d - mean f) * Ideal.rsqrt (var f + offset)

/-- The maximum of 128 entries, from −∞. -/
def rowMax (f : Fin 128 → EReal) : EReal := (Finset.univ : Finset (Fin 128)).fold max bottom f
/-- The shifted exponentials normalised by their sum. -/
def softmax (f : Fin 128 → EReal) (a : Fin 128) : EReal :=
  Ideal.div (Ideal.exp (f a - rowMax f)) (∑ k : Fin 128, Ideal.exp (f k - rowMax f))

/-- Every row of `x` standardised, then scaled and shifted by router `r`'s parameters. -/
def newX (x : (⟨2, ![8192, 2048]⟩ : Shape).Idx → EReal) (w b : (⟨2, ![8, 2048]⟩ : Shape).Idx → EReal) :
    (⟨3, ![8, 8192, 2048]⟩ : Shape).Idx → EReal :=
  fun j => normed (fun k : Fin 2048 => x (ix2 (j 1) k)) (j 2) * w (ix2 (j 0) (j 2)) + b (ix2 (j 0) (j 2))

/-- Every column of router `r`'s weight matrix standardised over its rows, then scaled and shifted row by row. -/
def rwNorm (W : (⟨3, ![8, 2048, 128]⟩ : Shape).Idx → EReal) (g c : (⟨2, ![8, 2048]⟩ : Shape).Idx → EReal) :
    (⟨3, ![8, 2048, 128]⟩ : Shape).Idx → EReal :=
  fun j => normed (fun k : Fin 2048 => W (ix3 (j 0) k (j 2))) (j 1) * g (ix2 (j 0) (j 1)) + c (ix2 (j 0) (j 1))

/-- Router by router, the product of the rows with the weight matrix, plus the bias. -/
def logits (nx : (⟨3, ![8, 8192, 2048]⟩ : Shape).Idx → EReal) (rw : (⟨3, ![8, 2048, 128]⟩ : Shape).Idx → EReal)
    (bias : (⟨2, ![8, 128]⟩ : Shape).Idx → EReal) : (⟨3, ![8, 8192, 128]⟩ : Shape).Idx → EReal :=
  fun j => (∑ k : Fin 2048, nx (ix3 (j 0) (j 1) k) * rw (ix3 (j 0) k (j 2))) + bias (ix2 (j 0) (j 2))

/-- The softmax of every row of logits. -/
def probs (lg : (⟨3, ![8, 8192, 128]⟩ : Shape).Idx → EReal) : (⟨3, ![8, 8192, 128]⟩ : Shape).Idx → EReal :=
  fun j => softmax (fun a : Fin 128 => lg (ix3 (j 0) (j 1) a)) (j 2)

theorem newX_apply (x : (⟨2, ![8192, 2048]⟩ : Shape).Idx → EReal) (w b : (⟨2, ![8, 2048]⟩ : Shape).Idx → EReal)
    (r : Fin 8) (n : Fin 8192) (d : Fin 2048) :
    newX x w b (ix3 r n d) = normed (fun k : Fin 2048 => x (ix2 n k)) d * w (ix2 r d) + b (ix2 r d) := rfl

theorem rwNorm_apply (W : (⟨3, ![8, 2048, 128]⟩ : Shape).Idx → EReal) (g c : (⟨2, ![8, 2048]⟩ : Shape).Idx → EReal)
    (r : Fin 8) (d : Fin 2048) (a : Fin 128) :
    rwNorm W g c (ix3 r d a) = normed (fun k : Fin 2048 => W (ix3 r k a)) d * g (ix2 r d) + c (ix2 r d) := rfl

theorem logits_apply (nx : (⟨3, ![8, 8192, 2048]⟩ : Shape).Idx → EReal) (rw : (⟨3, ![8, 2048, 128]⟩ : Shape).Idx → EReal)
    (bias : (⟨2, ![8, 128]⟩ : Shape).Idx → EReal) (r : Fin 8) (n : Fin 8192) (a : Fin 128) :
    logits nx rw bias (ix3 r n a) = (∑ k : Fin 2048, nx (ix3 r n k) * rw (ix3 r k a)) + bias (ix2 r a) := rfl

theorem probs_apply (lg : (⟨3, ![8, 8192, 128]⟩ : Shape).Idx → EReal) (r : Fin 8) (n : Fin 8192) (a : Fin 128) :
    probs lg (ix3 r n a) = softmax (fun a' : Fin 128 => lg (ix3 r n a')) a := rfl

/-- The maximum from −∞ is at least −∞, so taking the maximum with −∞ once more changes nothing. -/
theorem max_bottom_rowMax (f : Fin 128 → EReal) : max bottom (rowMax f) = rowMax f :=
  max_eq_right (Finset.le_fold_max bottom |>.mpr (Or.inl le_rfl))

/-- The word of zero denotes zero, so a sum started from it is the sum. -/
theorem zero_add_sum {ι : Type} [Fintype ι] (f : ι → EReal) :
    Ideal.ofBits .f32 0x00000000#32 + ∑ k, f k = ∑ k, f k := by
  rw [Ideal.ofBits_zero_f32, zero_add]

end Cert.Spec

end
-- ==== Proof.LibRowMax3.lean ====
/-
  A maximum from `-∞` along the LAST axis of a rank-3 array, read at an index, on the extended reals.

  The host's `stablehlo.reduce` with a maximum body from the value of the pattern `0xFF800000` (`-∞`) along the third
  axis of an `[a, n, b]` array, at `(p, r)`, is the fold of `max` from `-∞` over the `b` entries `(p, r, ·)`. The reduced index
  `(p, r)` with the third coordinate `k` put back is `(p, r, k)`. (The rank-2 companion reads a row maximum of a matrix.)
-/
import Idealize.ShloMosaic.Lib.ValueIdx
import Idealize.ShloMosaic.PureOps.Ideal.Laws

noncomputable section

namespace Cert.Lib.RowMax3

open Idealize.ShloMosaic Idealize.ShloMosaic.ValueIdx

/-- The reduced index `(p, r)` with the last coordinate `k` put back is `(p, r, k)`. -/
theorem lift_last {a n b : ℕ} (hr : (⟨3, ![a, n, b]⟩ : Shape).Reduces [2] ⟨2, ![a, n]⟩) (p : Fin a) (r : Fin n)
    (k : Fin ((⟨3, ![a, n, b]⟩ : Shape).size 2)) : hr.lift (ix2 p r) k = ix3 p r (⟨k.val, k.isLt⟩ : Fin b) := by
  funext d; apply Fin.ext
  match d with
  | ⟨0, _⟩ => rfl
  | ⟨1, _⟩ => rfl
  | ⟨2, _⟩ => rfl

/-- The host's reduce with a maximum body from `-∞` along the last axis, at `(p, r)`, is the fold of `max` from `-∞`
    over the entries `(p, r, ·)`. -/
theorem hostLastMax_apply {a n b : ℕ} (z : FVec Ideal ⟨3, ![a, n, b]⟩ .f32)
    (hrt : (⟨3, ![a, n, b]⟩ : Shape).ReducesTo [2] ⟨2, ![a, n]⟩) (hr : (⟨3, ![a, n, b]⟩ : Shape).Reduces [2] ⟨2, ![a, n]⟩)
    (hu : 0 < (⟨0, ![]⟩ : Shape).numel) (p : Fin a) (r : Fin n) :
    Host.reduce FloatOps.maximumf z (constant (F := Ideal) ⟨0, ![]⟩ .f32 0xFF800000#32) hrt hu (ix2 p r)
      = (Finset.univ : Finset (Fin b)).fold max (Ideal.ofBits .f32 0xFF800000#32) (fun k => z (ix3 p r k)) := by
  rw [Host.reduce_eq_fold_single FloatOps.maximumf z _ hrt hr hu]
  have hf : (z ∘ hr.lift (ix2 p r)) = fun k : Fin b => z (ix3 p r k) := funext fun k => congrArg z (lift_last hr p r k)
  exact congrArg (fun f => Finset.fold max (Ideal.ofBits .f32 0xFF800000#32) f (Finset.univ : Finset (Fin b))) hf

end Cert.Lib.RowMax3

end
-- ==== Proof.LibIdxExt.lean ====
/-
  An index of a literal shape is determined by its coordinates.

  An index of a two-axis shape whose coordinates have the values of `a` and `b` is `ix2 a b`; likewise with three axes.
  Every index that a layout operation, a block of a window or a rectangle composes is identified this way: state the
  coordinates' values (usually by `rfl`, or by arithmetic on the block's offset) and the index is the constructor's.
-/
import Idealize.ShloMosaic.Lib.ValueIdx

noncomputable section

namespace Cert.Lib.IdxExt

open Idealize.ShloMosaic Idealize.ShloMosaic.ValueIdx

/-- An index of a two-axis shape with coordinates `a`, `b` is `ix2 a b`. -/
theorem ix2_ext {n0 n1 : Nat} (i : (⟨2, ![n0, n1]⟩ : Shape).Idx) (a : Fin n0) (b : Fin n1)
    (h0 : (i 0).val = a.val) (h1 : (i 1).val = b.val) : i = ix2 a b :=
  funext fun d => Fin.ext (by match d with | ⟨0, _⟩ => exact h0 | ⟨1, _⟩ => exact h1)

/-- An index of a three-axis shape with coordinates `a`, `b`, `c` is `ix3 a b c`. -/
theorem ix3_ext {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun d => Fin.ext (by match d with | ⟨0, _⟩ => exact h0 | ⟨1, _⟩ => exact h1 | ⟨2, _⟩ => exact h2)

end Cert.Lib.IdxExt

end
-- ==== Proof.RefValue.lean ====
/-
  The reference program, read as the specification.

  The reference computes its three results in stages, and each stage is read here at explicit coordinates.

  * The rows of `x`. Row `n` is summed from zero and divided by 2048 (its mean); the deviations from the mean are
    squared, summed from zero and divided by 2048 (its variance); the deviations are multiplied by the inverse square
    root of the variance plus the offset. That is `normed` of the row. The result is repeated for each of the eight
    routers, multiplied by `w[r, d]` and shifted by `b[r, d]`: this is `newX`.
  * The columns of `W`. The reference first exchanges the last two axes, so that column `a` of `W[r]` lies along the
    last axis at `(r, a, ·)`; it then does exactly what it did to the rows of `x`, multiplies by `g[r, d]`, adds
    `c[r, d]`, and exchanges the two axes back: this is `rwNorm`.
  * The product over the 2048 shared coordinates, router by router, plus `bias[r, a]`: this is `logits`.
  * Each logits row's maximum is taken from −∞ (and once more against −∞, which changes nothing), subtracted,
    exponentiated, and divided by the sum from zero of the exponentials of the row: this is `probs`.

  Both sides are the same composition of the same operations, so every step is closed by reading an operation at an
  index and identifying the index it reads; the only facts about numbers used are that the word of zero denotes zero
  (a sum started from it is the sum) and that a maximum taken from −∞ is at least −∞.
-/
import proofs.«122798_j5222680232633_2_alg».proof.Proof.Gen.ReferenceIdeal.Read
import proofs.«122798_j5222680232633_2_alg».proof.Proof.Spec
import proofs.«122798_j5222680232633_2_alg».proof.Proof.LibRowMax3
import proofs.«122798_j5222680232633_2_alg».proof.Proof.LibIdxExt
import Idealize.ShloMosaic.Lib.ValueIdx
import Idealize.ShloMosaic.PureOps.Ideal.Laws

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Lib.IdxExt

/-! ### The rows of `x` -/

section Rows

variable (x : (⟨S8192x2048, .f32⟩ : BufTy).Contents (Elt Ideal))

/-- The sum of row `n` from zero, divided by 2048, is the mean of that row. -/
theorem rowMean (n : Fin 8192) (u : Fin 1) :
    val_main_v3 (F := Ideal) x (ix2 n u) = Cert.Spec.mean (fun k : Fin 2048 => x (ix2 n k)) := by
  rw [val_main_v3_apply, val_main_v1_apply, val_main_v0_apply, val_main_v2_apply]
  show Ideal.div (Ideal.ofBits .f32 0x00000000#32 + ∑ k : Fin 2048, x (idx_main_v0 (idx_main_v1 (ix2 n u)) k))
      (Ideal.ofBits .f32 0x45000000#32) = _
  rw [Cert.Spec.zero_add_sum]
  exact congrArg (fun s => Ideal.div s Cert.Spec.extent)
    (Finset.sum_congr rfl fun k _ => congrArg x (ix2_ext _ n k rfl rfl))

/-- Entry `(n, d)` minus the mean of row `n` (the copy that is squared). -/
theorem rowDev (n : Fin 8192) (d : Fin 2048) :
    val_main_v5 (F := Ideal) x (ix2 n d) = x (ix2 n d) - Cert.Spec.mean (fun k : Fin 2048 => x (ix2 n k)) := by
  rw [val_main_v5_apply, val_main_v4_apply, ix2_ext (idx_main_v4 (ix2 n d)) n (0 : Fin 1) rfl rfl, rowMean]
  rfl

/-- The sum of the squared deviations of row `n` from zero, divided by 2048, is the variance of that row. -/
theorem rowVar (n : Fin 8192) (u : Fin 1) :
    val_main_v10 (F := Ideal) x (ix2 n u) = Cert.Spec.var (fun k : Fin 2048 => x (ix2 n k)) := by
  rw [val_main_v10_apply, val_main_v8_apply, val_main_v7_apply, val_main_v9_apply]
  show Ideal.div (Ideal.ofBits .f32 0x00000000#32
        + ∑ k : Fin 2048, val_main_v6 (F := Ideal) x (idx_main_v7 (idx_main_v8 (ix2 n u)) k))
      (Ideal.ofBits .f32 0x45000000#32) = _
  rw [Cert.Spec.zero_add_sum]
  refine congrArg (fun s => Ideal.div s Cert.Spec.extent) (Finset.sum_congr rfl fun k _ => ?_)
  rw [ix2_ext (idx_main_v7 (idx_main_v8 (ix2 n u)) k) n k rfl rfl, val_main_v6_apply, rowDev]
  rfl

/-- The inverse square root of the variance of row `n` plus the offset, spread along the row. -/
theorem rowScale (n : Fin 8192) (d : Fin 2048) :
    val_main_v16 (F := Ideal) x (ix2 n d)
      = Ideal.rsqrt (Cert.Spec.var (fun k : Fin 2048 => x (ix2 n k)) + Cert.Spec.offset) := by
  rw [val_main_v16_apply, val_main_v15_apply, val_main_v14_apply,
    ix2_ext (idx_main_v16 (ix2 n d)) n (0 : Fin 1) rfl rfl, rowVar]
  rfl

/-- Row `n` standardised, at `d`. -/
theorem rowNormed (n : Fin 8192) (d : Fin 2048) :
    val_main_v17 (F := Ideal) x (ix2 n d) = Cert.Spec.normed (fun k : Fin 2048 => x (ix2 n k)) d := by
  rw [val_main_v17_apply, val_main_v12_apply, val_main_v11_apply,
    ix2_ext (idx_main_v11 (ix2 n d)) n (0 : Fin 1) rfl rfl, rowMean, rowScale]
  rfl

end Rows

/-- The standardised row `n`, repeated for every router `r`, times `w[r, d]` plus `b[r, d]`. -/
theorem newx_at (x : (⟨S8192x2048, .f32⟩ : BufTy).Contents (Elt Ideal))
    (w b : (⟨S8x2048, .f32⟩ : BufTy).Contents (Elt Ideal)) (r : Fin 8) (n : Fin 8192) (d : Fin 2048) :
    val_main_v25 (F := Ideal) x w b (ix3 r n d) = Cert.Spec.newX x w b (ix3 r n d) := by
  rw [val_main_v25_apply, val_main_v22_apply, val_main_v20_apply, val_main_v19_apply, val_main_v21_apply,
    val_main_v18_apply, val_main_v24_apply, val_main_v23_apply,
    ix2_ext (idx_main_v19 (idx_main_v20 (ix3 r n d))) n d rfl rfl, rowNormed,
    ix2_ext (idx_main_v18 (idx_main_v21 (ix3 r n d))) r d rfl rfl,
    ix2_ext (idx_main_v23 (idx_main_v24 (ix3 r n d))) r d rfl rfl]
  rfl

/-- The first result of the reference is `newX`. -/
theorem newx_eq (x : (⟨S8192x2048, .f32⟩ : BufTy).Contents (Elt Ideal))
    (w b : (⟨S8x2048, .f32⟩ : BufTy).Contents (Elt Ideal)) :
    val_main_v25 (F := Ideal) x w b = Cert.Spec.newX x w b := by
  funext i
  obtain ⟨r, n, d, rfl⟩ : ∃ (r : Fin 8) (n : Fin 8192) (d : Fin 2048), i = ix3 r n d := ⟨i 0, i 1, i 2, eq_ix3 i⟩
  exact newx_at x w b r n d

/-! ### The columns of the weight matrices

The reference transposes `W` to `[8, 128, 2048]`, so that column `a` of router `r` is the row `(r, a, ·)`, standardises
along the last axis, scales and shifts by `g[r, ·]`, `c[r, ·]`, and transposes back. -/

section Cols

variable (W : (⟨S8x2048x128, .f32⟩ : BufTy).Contents (Elt Ideal))

/-- The transposed array at `(r, a, d)` is `W[r, d, a]`. -/
theorem colT (r : Fin 8) (a : Fin 128) (d : Fin 2048) :
    val_main_v26 (F := Ideal) W (ix3 r a d) = W (ix3 r d a) := by
  rw [val_main_v26_apply]
  exact congrArg W (ix3_ext _ r d a rfl rfl rfl)

/-- The sum of column `a` of `W[r]` from zero, divided by 2048, is the mean of that column. -/
theorem colMean (r : Fin 8) (a : Fin 128) (u : Fin 1) :
    val_main_v30 (F := Ideal) W (ix3 r a u) = Cert.Spec.mean (fun k : Fin 2048 => W (ix3 r k a)) := by
  rw [val_main_v30_apply, val_main_v28_apply, val_main_v27_apply, val_main_v29_apply]
  show Ideal.div (Ideal.ofBits .f32 0x00000000#32
        + ∑ k : Fin 2048, val_main_v26 (F := Ideal) W (idx_main_v27 (idx_main_v28 (ix3 r a u)) k))
      (Ideal.ofBits .f32 0x45000000#32) = _
  rw [Cert.Spec.zero_add_sum]
  refine congrArg (fun s => Ideal.div s Cert.Spec.extent) (Finset.sum_congr rfl fun k _ => ?_)
  rw [ix3_ext (idx_main_v27 (idx_main_v28 (ix3 r a u)) k) r a k rfl rfl rfl, colT]

/-- Entry `(r, d, a)` minus the mean of its column (the copy that is squared). -/
theorem colDev (r : Fin 8) (a : Fin 128) (d : Fin 2048) :
    val_main_v32 (F := Ideal) W (ix3 r a d)
      = W (ix3 r d a) - Cert.Spec.mean (fun k : Fin 2048 => W (ix3 r k a)) := by
  rw [val_main_v32_apply, val_main_v31_apply, colT,
    ix3_ext (idx_main_v31 (ix3 r a d)) r a (0 : Fin 1) rfl rfl rfl, colMean]
  rfl

/-- The sum of the squared deviations of column `a` from zero, divided by 2048, is the variance of that column. -/
theorem colVar (r : Fin 8) (a : Fin 128) (u : Fin 1) :
    val_main_v37 (F := Ideal) W (ix3 r a u) = Cert.Spec.var (fun k : Fin 2048 => W (ix3 r k a)) := by
  rw [val_main_v37_apply, val_main_v35_apply, val_main_v34_apply, val_main_v36_apply]
  show Ideal.div (Ideal.ofBits .f32 0x00000000#32
        + ∑ k : Fin 2048, val_main_v33 (F := Ideal) W (idx_main_v34 (idx_main_v35 (ix3 r a u)) k))
      (Ideal.ofBits .f32 0x45000000#32) = _
  rw [Cert.Spec.zero_add_sum]
  refine congrArg (fun s => Ideal.div s Cert.Spec.extent) (Finset.sum_congr rfl fun k _ => ?_)
  rw [ix3_ext (idx_main_v34 (idx_main_v35 (ix3 r a u)) k) r a k rfl rfl rfl, val_main_v33_apply, colDev]
  rfl

/-- The inverse square root of the variance of column `a` plus the offset, spread along the column. -/
theorem colScale (r : Fin 8) (a : Fin 128) (d : Fin 2048) :
    val_main_v43 (F := Ideal) W (ix3 r a d)
      = Ideal.rsqrt (Cert.Spec.var (fun k : Fin 2048 => W (ix3 r k a)) + Cert.Spec.offset) := by
  rw [val_main_v43_apply, val_main_v42_apply, val_main_v41_apply,
    ix3_ext (idx_main_v43 (ix3 r a d)) r a (0 : Fin 1) rfl rfl rfl, colVar]
  rfl

/-- Column `a` of `W[r]` standardised, at row `d`. -/
theorem colNormed (r : Fin 8) (a : Fin 128) (d : Fin 2048) :
    val_main_v44 (F := Ideal) W (ix3 r a d) = Cert.Spec.normed (fun k : Fin 2048 => W (ix3 r k a)) d := by
  rw [val_main_v44_apply, val_main_v39_apply, val_main_v38_apply, colT,
    ix3_ext (idx_main_v38 (ix3 r a d)) r a (0 : Fin 1) rfl rfl rfl, colMean, colScale]
  rfl

end Cols

/-- Before the transposition back: the standardised column times `g[r, d]` plus `c[r, d]`, at `(r, a, d)`. -/
theorem rwnorm_T (W : (⟨S8x2048x128, .f32⟩ : BufTy).Contents (Elt Ideal))
    (g c : (⟨S8x2048, .f32⟩ : BufTy).Contents (Elt Ideal)) (r : Fin 8) (a : Fin 128) (d : Fin 2048) :
    val_main_v50 (F := Ideal) W g c (ix3 r a d) = Cert.Spec.rwNorm W g c (ix3 r d a) := by
  rw [val_main_v50_apply, val_main_v47_apply, colNormed, val_main_v46_apply, val_main_v45_apply,
    val_main_v49_apply, val_main_v48_apply,
    ix2_ext (idx_main_v45 (idx_main_v46 (ix3 r a d))) r d rfl rfl,
    ix2_ext (idx_main_v48 (idx_main_v49 (ix3 r a d))) r d rfl rfl]
  rfl

/-- Transposed back, the weight side is `rwNorm` at `(r, d, a)`. -/
theorem rwnorm_at (W : (⟨S8x2048x128, .f32⟩ : BufTy).Contents (Elt Ideal))
    (g c : (⟨S8x2048, .f32⟩ : BufTy).Contents (Elt Ideal)) (r : Fin 8) (d : Fin 2048) (a : Fin 128) :
    val_main_v51 (F := Ideal) W g c (ix3 r d a) = Cert.Spec.rwNorm W g c (ix3 r d a) := by
  rw [val_main_v51_apply, ix3_ext (idx_main_v51 (ix3 r d a)) r a d rfl rfl rfl, rwnorm_T]

/-- The normalised weights of the reference are `rwNorm`. -/
theorem rwnorm_eq (W : (⟨S8x2048x128, .f32⟩ : BufTy).Contents (Elt Ideal))
    (g c : (⟨S8x2048, .f32⟩ : BufTy).Contents (Elt Ideal)) :
    val_main_v51 (F := Ideal) W g c = Cert.Spec.rwNorm W g c := by
  funext i
  obtain ⟨r, d, a, rfl⟩ : ∃ (r : Fin 8) (d : Fin 2048) (a : Fin 128), i = ix3 r d a := ⟨i 0, i 1, i 2, eq_ix3 i⟩
  exact rwnorm_at W g c r d a

/-! ### The product and the softmax -/

section Product

variable (x : (⟨S8192x2048, .f32⟩ : BufTy).Contents (Elt Ideal))
    (w b : (⟨S8x2048, .f32⟩ : BufTy).Contents (Elt Ideal)) (W : (⟨S8x2048x128, .f32⟩ : BufTy).Contents (Elt Ideal))
    (g c : (⟨S8x2048, .f32⟩ : BufTy).Contents (Elt Ideal)) (bias : (⟨S8x128, .f32⟩ : BufTy).Contents (Elt Ideal))

/-- Router by router, the rows times the normalised weights, plus the bias. -/
theorem logits_at (r : Fin 8) (n : Fin 8192) (a : Fin 128) :
    val_main_v55 (F := Ideal) x w b W g c bias (ix3 r n a)
      = Cert.Spec.logits (Cert.Spec.newX x w b) (Cert.Spec.rwNorm W g c) bias (ix3 r n a) := by
  rw [val_main_v55_apply, val_main_v52_apply, newx_eq, rwnorm_eq, val_main_v54_apply, val_main_v53_apply,
    ix2_ext (idx_main_v53 (idx_main_v54 (ix3 r n a))) r a rfl rfl, Cert.Spec.logits_apply]
  show (∑ k : Fin 2048, Cert.Spec.newX x w b (lidx_main_v52 (ix3 r n a) k)
        * Cert.Spec.rwNorm W g c (ridx_main_v52 (ix3 r n a) k)) + bias (ix2 r a) = _
  refine congrArg (· + bias (ix2 r a)) (Finset.sum_congr rfl fun k _ => ?_)
  rw [ix3_ext (lidx_main_v52 (ix3 r n a) k) r n k rfl rfl rfl, ix3_ext (ridx_main_v52 (ix3 r n a) k) r k a rfl rfl rfl]

/-- The second result of the reference is `logits`. -/
theorem logits_eq :
    val_main_v55 (F := Ideal) x w b W g c bias = Cert.Spec.logits (Cert.Spec.newX x w b) (Cert.Spec.rwNorm W g c) bias := by
  funext i
  obtain ⟨r, n, a, rfl⟩ : ∃ (r : Fin 8) (n : Fin 8192) (a : Fin 128), i = ix3 r n a := ⟨i 0, i 1, i 2, eq_ix3 i⟩
  exact logits_at x w b W g c bias r n a

/-- The maximum along the last axis, from −∞, at `(r, n)`, is the maximum of the logits row `(r, n)`. -/
theorem rowTop0 (r : Fin 8) (n : Fin 8192) :
    val_main_v56 (F := Ideal) x w b W g c bias (ix2 r n)
      = Cert.Spec.rowMax (fun a : Fin 128 => Cert.Spec.logits (Cert.Spec.newX x w b) (Cert.Spec.rwNorm W g c) bias (ix3 r n a)) := by
  unfold val_main_v56
  rw [logits_eq]
  exact Cert.Lib.RowMax3.hostLastMax_apply _ reducesTo_S8x8192x128_S8x8192_d2 (by decide) h_S_ r n

/-- Taking the maximum with −∞ once more leaves the row maximum. -/
theorem rowTop (r : Fin 8) (n : Fin 8192) :
    val_main_v58 (F := Ideal) x w b W g c bias (ix2 r n)
      = Cert.Spec.rowMax (fun a : Fin 128 => Cert.Spec.logits (Cert.Spec.newX x w b) (Cert.Spec.rwNorm W g c) bias (ix3 r n a)) := by
  rw [val_main_v58_apply, rowTop0]
  exact Cert.Spec.max_bottom_rowMax _

/-- The exponential of a logit minus the maximum of its row. -/
theorem expShift (r : Fin 8) (n : Fin 8192) (a : Fin 128) :
    val_main_v62 (F := Ideal) x w b W g c bias (ix3 r n a)
      = Ideal.exp (Cert.Spec.logits (Cert.Spec.newX x w b) (Cert.Spec.rwNorm W g c) bias (ix3 r n a)
          - Cert.Spec.rowMax (fun a' : Fin 128 => Cert.Spec.logits (Cert.Spec.newX x w b) (Cert.Spec.rwNorm W g c) bias (ix3 r n a'))) := by
  rw [val_main_v62_apply, val_main_v61_apply, logits_eq, val_main_v60_apply, val_main_v59_apply,
    ix2_ext (idx_main_v59 (idx_main_v60 (ix3 r n a))) r n rfl rfl, rowTop]
  rfl

/-- The sum of the shifted exponentials of row `(r, n)`, from zero. -/
theorem expSum (r : Fin 8) (n : Fin 8192) :
    val_main_v63 (F := Ideal) x w b W g c bias (ix2 r n)
      = ∑ k : Fin 128, Ideal.exp (Cert.Spec.logits (Cert.Spec.newX x w b) (Cert.Spec.rwNorm W g c) bias (ix3 r n k)
          - Cert.Spec.rowMax (fun a' : Fin 128 => Cert.Spec.logits (Cert.Spec.newX x w b) (Cert.Spec.rwNorm W g c) bias (ix3 r n a'))) := by
  rw [val_main_v63_apply]
  show Ideal.ofBits .f32 0x00000000#32
      + ∑ k : Fin 128, val_main_v62 (F := Ideal) x w b W g c bias (idx_main_v63 (ix2 r n) k) = _
  rw [Cert.Spec.zero_add_sum]
  refine Finset.sum_congr rfl fun k _ => ?_
  rw [ix3_ext (idx_main_v63 (ix2 r n) k) r n k rfl rfl rfl, expShift]

/-- The shifted exponential divided by the sum of its row: the softmax of the logits row. -/
theorem probs_at (r : Fin 8) (n : Fin 8192) (a : Fin 128) :
    val_main_v66 (F := Ideal) x w b W g c bias (ix3 r n a)
      = Cert.Spec.probs (Cert.Spec.logits (Cert.Spec.newX x w b) (Cert.Spec.rwNorm W g c) bias) (ix3 r n a) := by
  rw [val_main_v66_apply, expShift, val_main_v65_apply, val_main_v64_apply,
    ix2_ext (idx_main_v64 (idx_main_v65 (ix3 r n a))) r n rfl rfl, expSum, Cert.Spec.probs_apply]
  rfl

/-- The third result of the reference is `probs` of the logits. -/
theorem probs_eq :
    val_main_v66 (F := Ideal) x w b W g c bias
      = Cert.Spec.probs (Cert.Spec.logits (Cert.Spec.newX x w b) (Cert.Spec.rwNorm W g c) bias) := by
  funext i
  obtain ⟨r, n, a, rfl⟩ : ∃ (r : Fin 8) (n : Fin 8192) (a : Fin 128), i = ix3 r n a := ⟨i 0, i 1, i 2, eq_ix3 i⟩
  exact probs_at x w b W g c bias r n a

end Product

end Cert.RefValue

end
-- ==== Proof.KernelRun.lean ====
/-
  The idealized kernel's run with its three result arrays read.

  The program is a stretch of host operations (two reshapes) followed by two pipelined regions. Its run leaves every
  unscoped buffer at the contents of the last segment boundary: the launch memory carried through the host stretch, then
  through the first region (whose output array holds what its grid points wrote back), then through the second. Read at the
  three result buffers and at the seven arguments this says: each result ends at the last boundary's contents of its
  buffer, and each argument ends as launched (no host operation and no region writes an argument).
-/
import proofs.«122798_j5222680232633_2_alg».proof.Proof.Gen.KernelIdeal.Frame

set_option maxRecDepth 16384

noncomputable section

namespace Cert.KernelIdeal.Outputs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; each result buffer then holds the last
    boundary's contents `W3` of that buffer, and each argument what it held at launch. -/
theorem run : θ_run defs (onTc (τ := τ) (main (F := F))) ⟨m, fun _ => 0, ρ⟩ (fun r => ∀ c : Dev nD,
      r.2.mem ((c.tc : Thread nD τ).loc main_v3_0) = W3 m ρ c (Proc.devRef .tc main_v3_0)
      ∧ r.2.mem ((c.tc : Thread nD τ).loc main_v3_1) = W3 m ρ c (Proc.devRef .tc main_v3_1)
      ∧ r.2.mem ((c.tc : Thread nD τ).loc main_v3_2) = W3 m ρ c (Proc.devRef .tc main_v3_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3_0 (by decide)),
       h c _ (mem_uc main_v3_1 (by decide)),
       h c _ (mem_uc main_v3_2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Outputs

end
-- ==== Proof.LibRowMax.lean ====
/-
  A row maximum taken from `-∞`, read at an index, on the extended reals.

  The maximum along the second axis of an `[n, b]` array at row `p` is the fold of `max`, from the value of the pattern
  `0xFF800000` (`-∞`), over the `b` entries of that row — for a kernel's `vector.multi_reduction <maximumf>` with that
  accumulator and for the host's `stablehlo.reduce` with a maximum body from that initial value alike. The reduced
  index `p` with column `k` put back is `(p, k)`.
-/
import Idealize.ShloMosaic.Lib.ValueIdx
import Idealize.ShloMosaic.PureOps.Ideal.Laws

noncomputable section

namespace Cert.Lib.RowMax

open Idealize.ShloMosaic Idealize.ShloMosaic.ValueIdx

/-- The reduced index `p` with column `k` put back is `(p, k)`. -/
theorem lift_row {n b : ℕ} (hr : (⟨2, ![n, b]⟩ : Shape).Reduces [1] ⟨1, ![n]⟩) (p : Fin n)
    (k : Fin ((⟨2, ![n, b]⟩ : Shape).size 1)) : hr.lift (ix1 p) k = ix2 p (⟨k.val, k.isLt⟩ : Fin b) := by
  funext d; apply Fin.ext
  match d with
  | ⟨0, _⟩ => rfl
  | ⟨1, _⟩ => rfl

/-- A kernel's maximum along the second axis, at row `p`, is the fold of `max` from `-∞` over that row. -/
theorem rowmax_apply {a b : ℕ} (x : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ x 0xFF800000#32 h hφ hacc (ix1 p)
      = (Finset.univ : Finset (Fin b)).fold max (Ideal.ofBits .f32 0xFF800000#32) (fun k => x (ix2 p k)) := by
  refine (Ideal.multiReduction_maximumf_single x 0xFF800000#32 h hφ hacc (ix1 p)).trans ?_
  have hf : (x ∘ h.lift (ix1 p)) = fun k : Fin b => x (ix2 p k) := funext fun k => congrArg x (lift_row h p k)
  exact congrArg (fun f => Finset.fold max (Ideal.ofBits .f32 0xFF800000#32) f (Finset.univ : Finset (Fin b))) hf

/-- The host's reduce with a maximum body from `-∞` along the second axis, at row `p`, is the same fold. -/
theorem hostRowMax_apply {n b : ℕ} (z : FVec Ideal ⟨2, ![n, b]⟩ .f32) (hrt : (⟨2, ![n, b]⟩ : Shape).ReducesTo [1] ⟨1, ![n]⟩)
    (hr : (⟨2, ![n, b]⟩ : Shape).Reduces [1] ⟨1, ![n]⟩) (hu : 0 < (⟨0, ![]⟩ : Shape).numel) (p : Fin n) :
    Host.reduce FloatOps.maximumf z (constant (F := Ideal) ⟨0, ![]⟩ .f32 0xFF800000#32) hrt hu (ix1 p)
      = (Finset.univ : Finset (Fin b)).fold max (Ideal.ofBits .f32 0xFF800000#32) (fun k => z (ix2 p k)) := by
  rw [Host.reduce_eq_fold_single FloatOps.maximumf z _ hrt hr hu]
  have hf : (z ∘ hr.lift (ix1 p)) = fun k : Fin b => z (ix2 p k) := funext fun k => congrArg z (lift_row hr p k)
  exact congrArg (fun f => Finset.fold max (Ideal.ofBits .f32 0xFF800000#32) f (Finset.univ : Finset (Fin b))) hf

end Cert.Lib.RowMax

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.MainBody.lean ====
/-
  One router's share of the main kernel's body, read at an index, on the extended reals.

  The body loads a block of 128 rows of `x` once and standardises every row over its 2048 entries; then, for each of the
  eight routers in turn, it scales and shifts the standardised rows by that router's two parameter rows (the `newX` piece),
  multiplies them with the router's 2048×128 weight slice and adds the router's bias row (the `logits` piece), and takes
  the softmax of every row of logits (the `probs` piece). This module reads those four values at an index:
    core x (p, d)          = the standardised row p of the block at d;
    scaled xn w b (p, d)   = xn(p, d) · w(0, d) + b(0, d);
    logitsOf nx W β (p, a) = Σ_k nx(p, k) · W(0, k, a) + β(0, a);
    the softmax piece at (p, a) = the softmax of row p of logitsOf at a.
-/
import proofs.«122798_j5222680232633_2_alg».proof.Proof.Gen.KernelIdeal.Skeleton
import proofs.«122798_j5222680232633_2_alg».proof.Proof.Spec
import proofs.«122798_j5222680232633_2_alg».proof.Proof.LibRowMax
import proofs.«122798_j5222680232633_2_alg».proof.Proof.LibPlainDot
import proofs.«122798_j5222680232633_2_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MainBody

open Cert.KernelIdeal Cert.KernelIdeal.Gen
open Idealize.ShloMosaic Idealize.ShloMosaic.ValueIdx

/-! ## The block's rows standardised -/

/-- The column of the 128 row means: the row sums recast as a column, over the broadcast divisor. -/
def meanCol (x : FVec Ideal S128x2048 .f32) : FVec Ideal S128x1 .f32 :=
  divf (shapeCast S128x1 (multiReduction .add [1] S128 x 0x00000000#32 Facts₀.reduces_S128x2048_S128 (.inl rfl) rfl) Facts₀.shapeCasts_S128_S128x1)
    (broadcast S128x1 (Scalar.ofBits .f32 0x45000000#32))

theorem meanCol_apply (x : FVec Ideal S128x2048 .f32) (p : Fin 128) (u : Fin 1) :
    meanCol x (ix2 p u) = Cert.Spec.mean (fun k : Fin 2048 => x (ix2 p k)) := by
  unfold meanCol
  rw [divf_apply, Cert.Gcn.Lib.shapeCast_a_a1_apply, Cert.Gcn.Lib.rowsum_apply]
  rfl

/-- The deviations from the row means. -/
def centred (x : FVec Ideal S128x2048 .f32) : FVec Ideal S128x2048 .f32 :=
  subf x (broadcastTo S128x2048 (meanCol x) Facts₀.broadcasts_S128x1_S128x2048)

theorem centred_apply (x : FVec Ideal S128x2048 .f32) (p : Fin 128) (d : Fin 2048) :
    centred x (ix2 p d) = x (ix2 p d) - Cert.Spec.mean (fun k : Fin 2048 => x (ix2 p k)) := by
  unfold centred
  rw [subf_apply, Cert.Gcn.Lib.broadcastTo_a1_ab_apply, meanCol_apply]

/-- The column of the 128 row variances. -/
def varCol (x : FVec Ideal S128x2048 .f32) : FVec Ideal S128x1 .f32 :=
  divf (shapeCast S128x1 (multiReduction .add [1] S128 (mulf (centred x) (centred x)) 0x00000000#32 Facts₀.reduces_S128x2048_S128 (.inl rfl) rfl)
      Facts₀.shapeCasts_S128_S128x1)
    (broadcast S128x1 (Scalar.ofBits .f32 0x45000000#32))

theorem varCol_apply (x : FVec Ideal S128x2048 .f32) (p : Fin 128) (u : Fin 1) :
    varCol x (ix2 p u) = Cert.Spec.var (fun k : Fin 2048 => x (ix2 p k)) := by
  unfold varCol
  rw [divf_apply, Cert.Gcn.Lib.shapeCast_a_a1_apply, Cert.Gcn.Lib.rowsum_apply]
  unfold Cert.Spec.var
  refine congrArg (fun s => Ideal.div s _) (Finset.sum_congr rfl fun k _ => ?_)
  rw [mulf_apply, centred_apply]

/-- The body's standardised block is the deviations times the broadcast inverse root of variance plus offset. -/
theorem core_eq (x : FVec Ideal S128x2048 .f32) :
    k1_pay5 (F := Ideal) x = mulf (centred x)
      (broadcastTo S128x2048 (rsqrt (addf (varCol x) (broadcast S128x1 (Scalar.ofBits .f32 0x3727C5AC#32)))) Facts₀.broadcasts_S128x1_S128x2048) := rfl

theorem core_apply (x : FVec Ideal S128x2048 .f32) (p : Fin 128) (d : Fin 2048) :
    k1_pay5 (F := Ideal) x (ix2 p d) = Cert.Spec.normed (fun k : Fin 2048 => x (ix2 p k)) d := by
  rw [core_eq, mulf_apply, centred_apply, Cert.Gcn.Lib.broadcastTo_a1_ab_apply]
  show _ * Ideal.rsqrt (varCol x (ix2 p (0 : Fin 1)) + _) = _
  rw [varCol_apply]
  rfl

/-! ## One router: scale and shift, product plus bias, softmax -/

/-- The standardised rows scaled by a parameter row and shifted by another. -/
theorem scaled_apply (xn : FVec Ideal S128x2048 .f32) (w b : Vec Ideal S1x2048 .f32) (p : Fin 128) (d : Fin 2048) :
    k1_pay49 (F := Ideal) xn w b (ix2 p d) = xn (ix2 p d) * w (ix2 (0 : Fin 1) d) + b (ix2 (0 : Fin 1) d) := by
  unfold k1_pay49
  rw [addf_apply, mulf_apply, broadcastTo_1b_ab_apply, broadcastTo_1b_ab_apply, shapeCast_a_1a_apply, shapeCast_a_1a_apply,
    shapeCast_1a_a_apply, shapeCast_1a_a_apply]

/-- The piece stored into the `newX` block: the rows under a leading unit axis. -/
theorem newxPiece_apply (nx : FVec Ideal S128x2048 .f32) (u : Fin 1) (p : Fin 128) (d : Fin 2048) :
    k1_pay1 (F := Ideal) nx (ix3 u p d) = nx (ix2 p d) := by
  unfold k1_pay1
  rw [shapeCast_ab_1ab_apply]

theorem dot_plain : dot_S128x2048_S2048x128_S128x128_1_0_0_1_n_n = DotDims.plain 128 2048 128 := rfl

/-- The rows times the router's weight slice, plus the bias row. -/
theorem logitsOf_apply (nx : FVec Ideal S128x2048 .f32) (W : Vec Ideal S1x2048x128 .f32) (β : Vec Ideal S1x128 .f32)
    (p : Fin 128) (a : Fin 128) :
    k1_pay2 (F := Ideal) nx W β (ix2 p a)
      = (∑ k : Fin 2048, nx (ix2 p k) * W (ix3 (0 : Fin 1) k a)) + β (ix2 (0 : Fin 1) a) := by
  unfold k1_pay2
  rw [addf_apply, broadcastTo_1b_ab_apply, shapeCast_a_1a_apply, shapeCast_1a_a_apply]
  refine congrArg (· + β (ix2 (0 : Fin 1) a)) ?_
  refine (congrFun (Cert.Lib.PlainDot.matmul_zero_eq _ dot_plain none _ _) (ix2 p a)).trans ?_
  rw [Cert.Lib.PlainDot.rowsByCols_apply]
  refine Finset.sum_congr rfl fun k _ => ?_
  rw [truncf_apply, truncf_apply, shapeCast_1ab_ab_apply]

/-- The piece stored into the `logits` block. -/
theorem logitsPiece_apply (nx : FVec Ideal S128x2048 .f32) (W : Vec Ideal S1x2048x128 .f32) (β : Vec Ideal S1x128 .f32)
    (u : Fin 1) (p : Fin 128) (a : Fin 128) :
    k1_pay3 (F := Ideal) nx W β (ix3 u p a) = k1_pay2 (F := Ideal) nx W β (ix2 p a) := by
  unfold k1_pay3
  rw [shapeCast_ab_1ab_apply]

/-- The piece stored into the `probs` block: the softmax of every row of logits. -/
theorem probsPiece_apply (nx : FVec Ideal S128x2048 .f32) (W : Vec Ideal S1x2048x128 .f32) (β : Vec Ideal S1x128 .f32)
    (u : Fin 1) (p : Fin 128) (a : Fin 128) :
    k1_pay4 (F := Ideal) nx W β (ix3 u p a)
      = Cert.Spec.softmax (fun a' : Fin 128 => k1_pay2 (F := Ideal) nx W β (ix2 p a')) a := by
  unfold k1_pay4
  rw [shapeCast_ab_1ab_apply, divf_apply, Cert.Gcn.Lib.broadcastTo_a1_ab_apply, Cert.Gcn.Lib.shapeCast_a_a1_apply,
    Cert.Gcn.Lib.rowsum_apply]
  have hm : ∀ q : Fin 128,
      broadcastTo S128x128 (shapeCast S128x1 (multiReduction .maximumf [1] S128 (k1_pay2 (F := Ideal) nx W β) 0xFF800000#32
        Facts₀.reduces_S128x128_S128 (.inl rfl) rfl) Facts₀.shapeCasts_S128_S128x1) Facts₀.broadcasts_S128x1_S128x128 (ix2 p q)
        = Cert.Spec.rowMax (fun a' : Fin 128 => k1_pay2 (F := Ideal) nx W β (ix2 p a')) := fun q => by
    rw [Cert.Gcn.Lib.broadcastTo_a1_ab_apply, Cert.Gcn.Lib.shapeCast_a_a1_apply, Cert.Lib.RowMax.rowmax_apply]
    rfl
  unfold Cert.Spec.softmax
  refine congrArg₂ Ideal.div ?_ (Finset.sum_congr rfl fun k _ => ?_)
  · show Ideal.exp (_ - _) = _
    rw [hm a]
  · show Ideal.exp (_ - _) = _
    rw [hm k]

end Cert.KernelIdeal.MainBody

end
-- ==== Proof.LibSlab.lean ====
/-
  One slab of an array along its leading axis, read through a unit-stride rectangle.

  A rectangle of sizes `[1, c]` at offset `(o, 0)` of an `[n, c]` array is row `o`; one of sizes `[1, b, c]` at offset
  `(o, 0, 0)` of an `[n, b, c]` array is the matrix `o` of the stack. Its local index `(u, i)` (resp. `(u, i, j)`), whatever the
  unit coordinate `u`, is the array's index `(o, i)` (resp. `(o, i, j)`): this is where a store through the rectangle puts
  its payload's entry, and what a load through it reads.
-/
import Idealize.ShloMosaic.Lib.Pipeline.Value
import Idealize.ShloMosaic.Lib.ValueIdx

noncomputable section

namespace Cert.Lib.Slab

open Idealize.ShloMosaic Idealize.ShloMosaic.ValueIdx

variable {Val : EltTy → Type} {e : EltTy}

/-- Row `o` of an `[n, c]` array: the rectangle's local index `(u, i)` is the array's `(o, i)`. -/
theorem idx_row {n c : ℕ} (o : ℕ) (ho : o < n)
    (inb : ∀ a, (![o, 0] : Fin 2 → ℕ) a + (⟨2, ![1, c]⟩ : Shape).size a ≤ (⟨2, ![n, c]⟩ : Shape).size a) (u : Fin 1) (i : Fin c) :
    (Rect.unit (s := ⟨2, ![n, c]⟩) ![o, 0] (⟨2, ![1, c]⟩ : Shape).size inb).idx (ix2 u i) = ix2 (⟨o, ho⟩ : Fin n) i := by
  funext a; apply Fin.ext
  match a with
  | ⟨0, _⟩ => show o + 1 * u.val = o; have := u.isLt; omega
  | ⟨1, _⟩ => show 0 + 1 * i.val = i.val; omega

/-- A load through that rectangle reads row `o`. -/
theorem ld_row {n c : ℕ} (X : (⟨2, ![n, c]⟩ : Shape).Idx → Val e) (o : ℕ) (ho : o < n)
    (inb : ∀ a, (![o, 0] : Fin 2 → ℕ) a + (⟨2, ![1, c]⟩ : Shape).size a ≤ (⟨2, ![n, c]⟩ : Shape).size a) (u : Fin 1) (i : Fin c) :
    View.ld X (Rect.unit (s := ⟨2, ![n, c]⟩) ![o, 0] (⟨2, ![1, c]⟩ : Shape).size inb) (ix2 u i) = X (ix2 (⟨o, ho⟩ : Fin n) i) :=
  congrArg X (idx_row o ho inb u i)

/-- Matrix `o` of an `[n, b, c]` stack: the rectangle's local index `(u, i, j)` is the array's `(o, i, j)`. -/
theorem idx_slab {n b c : ℕ} (o : ℕ) (ho : o < n)
    (inb : ∀ a, (![o, 0, 0] : Fin 3 → ℕ) a + (⟨3, ![1, b, c]⟩ : Shape).size a ≤ (⟨3, ![n, b, c]⟩ : Shape).size a)
    (u : Fin 1) (i : Fin b) (j : Fin c) :
    (Rect.unit (s := ⟨3, ![n, b, c]⟩) ![o, 0, 0] (⟨3, ![1, b, c]⟩ : Shape).size inb).idx (ix3 u i j) = ix3 (⟨o, ho⟩ : Fin n) i j := by
  funext a; apply Fin.ext
  match a with
  | ⟨0, _⟩ => show o + 1 * u.val = o; have := u.isLt; omega
  | ⟨1, _⟩ => show 0 + 1 * i.val = i.val; omega
  | ⟨2, _⟩ => show 0 + 1 * j.val = j.val; omega

/-- A load through that rectangle reads matrix `o`. -/
theorem ld_slab {n b c : ℕ} (X : (⟨3, ![n, b, c]⟩ : Shape).Idx → Val e) (o : ℕ) (ho : o < n)
    (inb : ∀ a, (![o, 0, 0] : Fin 3 → ℕ) a + (⟨3, ![1, b, c]⟩ : Shape).size a ≤ (⟨3, ![n, b, c]⟩ : Shape).size a)
    (u : Fin 1) (i : Fin b) (j : Fin c) :
    View.ld X (Rect.unit (s := ⟨3, ![n, b, c]⟩) ![o, 0, 0] (⟨3, ![1, b, c]⟩ : Shape).size inb) (ix3 u i j)
      = X (ix3 (⟨o, ho⟩ : Fin n) i j) :=
  congrArg X (idx_slab o ho inb u i j)

/-- The rectangle's embedding of a local index is the same array index (a store's payload entry lands there). -/
theorem emb_slab {n b c : ℕ} (o : ℕ) (ho : o < n)
    (inb : ∀ a, (![o, 0, 0] : Fin 3 → ℕ) a + (⟨3, ![1, b, c]⟩ : Shape).size a ≤ (⟨3, ![n, b, c]⟩ : Shape).size a)
    (u : Fin 1) (i : Fin b) (j : Fin c) :
    (Rect.unit (s := ⟨3, ![n, b, c]⟩) ![o, 0, 0] (⟨3, ![1, b, c]⟩ : Shape).size inb).emb (ix3 u i j) = ix3 (⟨o, ho⟩ : Fin n) i j :=
  idx_slab o ho inb u i j

end Cert.Lib.Slab

end
-- ==== Proof.MainBlocks.lean ====
/-
  What the main kernel's body leaves in its three output blocks, each as ONE function of the five input blocks.

  The body writes each output block router by router: slab `r` of the `[8, 128, ·]` block is computed from the block of
  128 rows of `x`, row `r` of the two scale/shift tables, matrix `r` of the standardised weights and row `r` of the bias
  table. Whichever way the body's text groups the operations of one router, they are the same operations in the same order,
  so every slab is the same function of its inputs with only `r` changing. Hence, with `x0 … x4` the input blocks,
    newX block   (r, p, d) = standardised row p of x0, at d, times x1(r, d), plus x2(r, d);
    logits block (r, p, a) = Σ_k newX block (r, p, k) · x3(r, k, a) + x4(r, a);
    probs block  (r, p, a) = the softmax of row (r, p) of the logits block, at a.
-/
import proofs.«122798_j5222680232633_2_alg».proof.Proof.Gen.KernelIdeal.Frame
import proofs.«122798_j5222680232633_2_alg».proof.Proof.MainBody
import proofs.«122798_j5222680232633_2_alg».proof.Proof.LibSlab

set_option maxRecDepth 16384

noncomputable section

namespace Cert.KernelIdeal.MainBlocks

open Cert.KernelIdeal Cert.KernelIdeal.Gen
open Idealize.ShloMosaic Idealize.ShloMosaic.ValueIdx

/-! ## The three block functions -/

def blockNewX (x0 : Vec Ideal S128x2048 .f32) (x1 x2 : Vec Ideal S8x2048 .f32) : Vec Ideal S8x128x2048 .f32 :=
  fun j => Cert.Spec.normed (fun k : Fin 2048 => x0 (ix2 (j 1) k)) (j 2) * x1 (ix2 (j 0) (j 2)) + x2 (ix2 (j 0) (j 2))

def blockLogits (x0 : Vec Ideal S128x2048 .f32) (x1 x2 : Vec Ideal S8x2048 .f32) (x3 : Vec Ideal S8x2048x128 .f32)
    (x4 : Vec Ideal S8x128 .f32) : Vec Ideal S8x128x128 .f32 :=
  fun j => (∑ k : Fin 2048, blockNewX x0 x1 x2 (ix3 (j 0) (j 1) k) * x3 (ix3 (j 0) k (j 2))) + x4 (ix2 (j 0) (j 2))

def blockProbs (x0 : Vec Ideal S128x2048 .f32) (x1 x2 : Vec Ideal S8x2048 .f32) (x3 : Vec Ideal S8x2048x128 .f32)
    (x4 : Vec Ideal S8x128 .f32) : Vec Ideal S8x128x128 .f32 :=
  fun j => Cert.Spec.softmax (fun a' : Fin 128 => blockLogits x0 x1 x2 x3 x4 (ix3 (j 0) (j 1) a')) (j 2)

theorem zeros2 : (![0, 0] : Fin 2 → ℕ) = fun _ => 0 := funext fun a => by fin_cases a <;> rfl

/-! ## One router's three pieces, at any slab `o` -/

section Router
variable (x0 : Vec Ideal S128x2048 .f32) (x1 x2 : Vec Ideal S8x2048 .f32) (x3 : Vec Ideal S8x2048x128 .f32)
  (x4 : Vec Ideal S8x128 .f32) (o : ℕ) (ho : o < 8)
  (inb1 : ∀ a, (![o, 0] : Fin 2 → ℕ) a + S1x2048.size a ≤ S8x2048.size a)
  (inb3 : ∀ a, (![o, 0, 0] : Fin 3 → ℕ) a + S1x2048x128.size a ≤ S8x2048x128.size a)
  (inb4 : ∀ a, (![o, 0] : Fin 2 → ℕ) a + S1x128.size a ≤ S8x128.size a)
include ho

/-- The router's scaled and shifted rows at `(p, d)`. -/
theorem rows_ok (p : Fin 128) (d : Fin 2048) :
    k1_pay49 (F := Ideal) (k1_pay5 (View.ld x0 r1_0)) (View.ld x1 (Rect.unit (s := S8x2048) ![o, 0] S1x2048.size inb1))
        (View.ld x2 (Rect.unit (s := S8x2048) ![o, 0] S1x2048.size inb1)) (ix2 p d)
      = blockNewX x0 x1 x2 (ix3 (⟨o, ho⟩ : Fin 8) p d) := by
  simp only [View.ld_unit_zero (S := S128x2048) zeros2]
  rw [MainBody.scaled_apply, MainBody.core_apply, Cert.Lib.Slab.ld_row x1 o ho inb1, Cert.Lib.Slab.ld_row x2 o ho inb1]
  rfl

/-- The router's logits at `(p, a)`. -/
theorem logitsRow_ok (p : Fin 128) (a : Fin 128) :
    k1_pay2 (F := Ideal) (k1_pay49 (k1_pay5 (View.ld x0 r1_0)) (View.ld x1 (Rect.unit (s := S8x2048) ![o, 0] S1x2048.size inb1))
        (View.ld x2 (Rect.unit (s := S8x2048) ![o, 0] S1x2048.size inb1)))
        (View.ld x3 (Rect.unit (s := S8x2048x128) ![o, 0, 0] S1x2048x128.size inb3))
        (View.ld x4 (Rect.unit (s := S8x128) ![o, 0] S1x128.size inb4)) (ix2 p a)
      = blockLogits x0 x1 x2 x3 x4 (ix3 (⟨o, ho⟩ : Fin 8) p a) := by
  rw [MainBody.logitsOf_apply, Cert.Lib.Slab.ld_row x4 o ho inb4]
  refine congrArg (· + x4 (ix2 (⟨o, ho⟩ : Fin 8) a)) (Finset.sum_congr rfl fun k _ => ?_)
  rw [rows_ok x0 x1 x2 o ho inb1 p k, Cert.Lib.Slab.ld_slab x3 o ho inb3]

variable (inb5 : ∀ a, (![o, 0, 0] : Fin 3 → ℕ) a + S1x128x2048.size a ≤ S8x128x2048.size a)
  (inb6 : ∀ a, (![o, 0, 0] : Fin 3 → ℕ) a + S1x128x128.size a ≤ S8x128x128.size a)

/-- The piece stored into slab `o` of the `newX` block is that slab of `blockNewX`. -/
theorem newxPiece_ok (y : S1x128x2048.Idx) :
    k1_pay1 (F := Ideal) (k1_pay49 (k1_pay5 (View.ld x0 r1_0)) (View.ld x1 (Rect.unit (s := S8x2048) ![o, 0] S1x2048.size inb1))
        (View.ld x2 (Rect.unit (s := S8x2048) ![o, 0] S1x2048.size inb1))) y
      = blockNewX x0 x1 x2 ((Rect.unit (s := S8x128x2048) ![o, 0, 0] S1x128x2048.size inb5).emb y) := by
  obtain ⟨u, p, d, rfl⟩ : ∃ (u : Fin 1) (p : Fin 128) (d : Fin 2048), y = ix3 u p d := ⟨y 0, y 1, y 2, eq_ix3 y⟩
  rw [Cert.Lib.Slab.emb_slab o ho inb5 u p d, MainBody.newxPiece_apply]
  exact rows_ok x0 x1 x2 o ho inb1 p d

/-- The piece stored into slab `o` of the `logits` block is that slab of `blockLogits`. -/
theorem logitsPiece_ok (y : S1x128x128.Idx) :
    k1_pay3 (F := Ideal) (k1_pay49 (k1_pay5 (View.ld x0 r1_0)) (View.ld x1 (Rect.unit (s := S8x2048) ![o, 0] S1x2048.size inb1))
        (View.ld x2 (Rect.unit (s := S8x2048) ![o, 0] S1x2048.size inb1)))
        (View.ld x3 (Rect.unit (s := S8x2048x128) ![o, 0, 0] S1x2048x128.size inb3))
        (View.ld x4 (Rect.unit (s := S8x128) ![o, 0] S1x128.size inb4)) y
      = blockLogits x0 x1 x2 x3 x4 ((Rect.unit (s := S8x128x128) ![o, 0, 0] S1x128x128.size inb6).emb y) := by
  obtain ⟨u, p, a, rfl⟩ : ∃ (u : Fin 1) (p : Fin 128) (a : Fin 128), y = ix3 u p a := ⟨y 0, y 1, y 2, eq_ix3 y⟩
  rw [Cert.Lib.Slab.emb_slab o ho inb6 u p a, MainBody.logitsPiece_apply]
  exact logitsRow_ok x0 x1 x2 x3 x4 o ho inb1 inb3 inb4 p a

/-- The piece stored into slab `o` of the `probs` block is that slab of `blockProbs`. -/
theorem probsPiece_ok (y : S1x128x128.Idx) :
    k1_pay4 (F := Ideal) (k1_pay49 (k1_pay5 (View.ld x0 r1_0)) (View.ld x1 (Rect.unit (s := S8x2048) ![o, 0] S1x2048.size inb1))
        (View.ld x2 (Rect.unit (s := S8x2048) ![o, 0] S1x2048.size inb1)))
        (View.ld x3 (Rect.unit (s := S8x2048x128) ![o, 0, 0] S1x2048x128.size inb3))
        (View.ld x4 (Rect.unit (s := S8x128) ![o, 0] S1x128.size inb4)) y
      = blockProbs x0 x1 x2 x3 x4 ((Rect.unit (s := S8x128x128) ![o, 0, 0] S1x128x128.size inb6).emb y) := by
  obtain ⟨u, p, a, rfl⟩ : ∃ (u : Fin 1) (p : Fin 128) (a : Fin 128), y = ix3 u p a := ⟨y 0, y 1, y 2, eq_ix3 y⟩
  rw [Cert.Lib.Slab.emb_slab o ho inb6 u p a, MainBody.probsPiece_apply]
  exact congrArg (fun f => Cert.Spec.softmax f a)
    (funext fun a' => logitsRow_ok x0 x1 x2 x3 x4 o ho inb1 inb3 inb4 p a')

end Router

/-! ## The three output blocks -/

section Blocks
variable (x0 : Vec Ideal S128x2048 .f32) (x1 x2 : Vec Ideal S8x2048 .f32) (x3 : Vec Ideal S8x2048x128 .f32)
  (x4 : Vec Ideal S8x128 .f32)

/-- The `newX` block after the body: eight slabs, each the same function of its router's inputs. -/
theorem newx_block : out1_5 (F := Ideal) x0 x1 x2 x3 x4 = blockNewX x0 x1 x2 := by
  funext y
  unfold out1_5
  refine View.canon_apply_of_pieces (blockNewX x0 x1 x2) _ ?_ y (cover1_5 _ _ _ _ _ _ _ _ y)
  intro pc hpc
  simp only [List.mem_cons, List.not_mem_nil, or_false] at hpc
  rcases hpc with rfl | rfl | rfl | rfl | rfl | rfl | rfl | rfl
  · exact newxPiece_ok x0 x1 x2 7 (by decide) _ Facts₀.inb_S8x128x2048_S1x128x2048_7_0_0
  · exact newxPiece_ok x0 x1 x2 6 (by decide) _ Facts₀.inb_S8x128x2048_S1x128x2048_6_0_0
  · exact newxPiece_ok x0 x1 x2 5 (by decide) _ Facts₀.inb_S8x128x2048_S1x128x2048_5_0_0
  · exact newxPiece_ok x0 x1 x2 4 (by decide) _ Facts₀.inb_S8x128x2048_S1x128x2048_4_0_0
  · exact newxPiece_ok x0 x1 x2 3 (by decide) _ Facts₀.inb_S8x128x2048_S1x128x2048_3_0_0
  · exact newxPiece_ok x0 x1 x2 2 (by decide) _ Facts₀.inb_S8x128x2048_S1x128x2048_2_0_0
  · exact newxPiece_ok x0 x1 x2 1 (by decide) _ Facts₀.inb_S8x128x2048_S1x128x2048_1_0_0
  · exact newxPiece_ok x0 x1 x2 0 (by decide) _ Facts₀.inb_S8x128x2048_S1x128x2048_0_0_0

/-- The `logits` block after the body. -/
theorem logits_block : out1_6 (F := Ideal) x0 x1 x2 x3 x4 = blockLogits x0 x1 x2 x3 x4 := by
  funext y
  unfold out1_6
  refine View.canon_apply_of_pieces (blockLogits x0 x1 x2 x3 x4) _ ?_ y (cover1_6 _ _ _ _ _ _ _ _ y)
  intro pc hpc
  simp only [List.mem_cons, List.not_mem_nil, or_false] at hpc
  rcases hpc with rfl | rfl | rfl | rfl | rfl | rfl | rfl | rfl
  · exact logitsPiece_ok x0 x1 x2 x3 x4 7 (by decide) _ _ _ Facts₀.inb_S8x128x128_S1x128x128_7_0_0
  · exact logitsPiece_ok x0 x1 x2 x3 x4 6 (by decide) _ _ _ Facts₀.inb_S8x128x128_S1x128x128_6_0_0
  · exact logitsPiece_ok x0 x1 x2 x3 x4 5 (by decide) _ _ _ Facts₀.inb_S8x128x128_S1x128x128_5_0_0
  · exact logitsPiece_ok x0 x1 x2 x3 x4 4 (by decide) _ _ _ Facts₀.inb_S8x128x128_S1x128x128_4_0_0
  · exact logitsPiece_ok x0 x1 x2 x3 x4 3 (by decide) _ _ _ Facts₀.inb_S8x128x128_S1x128x128_3_0_0
  · exact logitsPiece_ok x0 x1 x2 x3 x4 2 (by decide) _ _ _ Facts₀.inb_S8x128x128_S1x128x128_2_0_0
  · exact logitsPiece_ok x0 x1 x2 x3 x4 1 (by decide) _ _ _ Facts₀.inb_S8x128x128_S1x128x128_1_0_0
  · exact logitsPiece_ok x0 x1 x2 x3 x4 0 (by decide) _ _ _ Facts₀.inb_S8x128x128_S1x128x128_0_0_0

/-- The `probs` block after the body. -/
theorem probs_block : out1_7 (F := Ideal) x0 x1 x2 x3 x4 = blockProbs x0 x1 x2 x3 x4 := by
  funext y
  unfold out1_7
  refine View.canon_apply_of_pieces (blockProbs x0 x1 x2 x3 x4) _ ?_ y (cover1_7 _ _ _ _ _ _ _ _ y)
  intro pc hpc
  simp only [List.mem_cons, List.not_mem_nil, or_false] at hpc
  rcases hpc with rfl | rfl | rfl | rfl | rfl | rfl | rfl | rfl
  · exact probsPiece_ok x0 x1 x2 x3 x4 7 (by decide) _ _ _ Facts₀.inb_S8x128x128_S1x128x128_7_0_0
  · exact probsPiece_ok x0 x1 x2 x3 x4 6 (by decide) _ _ _ Facts₀.inb_S8x128x128_S1x128x128_6_0_0
  · exact probsPiece_ok x0 x1 x2 x3 x4 5 (by decide) _ _ _ Facts₀.inb_S8x128x128_S1x128x128_5_0_0
  · exact probsPiece_ok x0 x1 x2 x3 x4 4 (by decide) _ _ _ Facts₀.inb_S8x128x128_S1x128x128_4_0_0
  · exact probsPiece_ok x0 x1 x2 x3 x4 3 (by decide) _ _ _ Facts₀.inb_S8x128x128_S1x128x128_3_0_0
  · exact probsPiece_ok x0 x1 x2 x3 x4 2 (by decide) _ _ _ Facts₀.inb_S8x128x128_S1x128x128_2_0_0
  · exact probsPiece_ok x0 x1 x2 x3 x4 1 (by decide) _ _ _ Facts₀.inb_S8x128x128_S1x128x128_1_0_0
  · exact probsPiece_ok x0 x1 x2 x3 x4 0 (by decide) _ _ _ Facts₀.inb_S8x128x128_S1x128x128_0_0_0

end Blocks

end Cert.KernelIdeal.MainBlocks

end
-- ==== Proof.MainValue.lean ====
/-
  The main kernel's three output arrays, from blocks to arrays.

  The grid has 64 points. Point `t` sees rows `128 t … 128 t + 127` of `x` and, whole, the scale and shift tables,
  the normalised weights and the bias table; it writes back rows `128 t … 128 t + 127` (all routers, all columns) of
  each of the three outputs. On those inputs the body's three block functions are the specification's `newX`, `logits`
  and `probs` read at the rows `128 t + p`: a standardised row depends on that row of `x` alone, a logit on one
  standardised row and the tables, a softmax on one row of logits. So what point `t` writes back is block `t` of the
  specification's function of the arrays the region finds; and since row `n` lies in the block of point `n / 128`, the
  64 blocks tile each output, which therefore ends holding that function.
-/
import proofs.«122798_j5222680232633_2_alg».proof.Proof.Gen.KernelIdeal.Frame
import proofs.«122798_j5222680232633_2_alg».proof.Proof.Spec
import proofs.«122798_j5222680232633_2_alg».proof.Proof.MainBlocks
import proofs.«122798_j5222680232633_2_alg».proof.Proof.LibIdxExt
import Idealize.ShloMosaic.Lib.Pipeline.Value
import Idealize.ShloMosaic.Lib.ValueIdx

noncomputable section

namespace Cert.KernelIdeal.MainValue

open Cert.KernelIdeal Cert.KernelIdeal.Gen Idealize.ShloMosaic Idealize.ShloMosaic.TcCoe Idealize.ShloMosaic.ValueIdx
  Idealize.SL.Sem
open Idealize.ShloMosaic.Pipeline (Dat)
open Cert.Lib.IdxExt

/-- The printed index maps over the 64 grid points: point `t` stages rows `128 t … 128 t + 127` of `x`, the four
    tables whole, and writes back the row blocks `(0, t, 0)` of the three outputs. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 3) = 0 ∧ win1_5.index t (1 : Fin 3) = t.val ∧ win1_5.index t (2 : Fin 3) = 0
    ∧ win1_6.index t (0 : Fin 3) = 0 ∧ win1_6.index t (1 : Fin 3) = t.val ∧ win1_6.index t (2 : Fin 3) = 0
    ∧ win1_7.index t (0 : Fin 3) = 0 ∧ win1_7.index t (1 : Fin 3) = t.val ∧ win1_7.index t (2 : Fin 3) = 0 :=
  (by decide +kernel : ∀ t : Fin grid1.N, _)

/-! ## The mathematics of one grid point

A point sees 128 rows of `x` (row `p` of the block is row `ρ p` of the array) and the four tables whole. On such
inputs the three block functions are the specification's functions read at the rows `ρ p`. -/

section Point

variable (X : (⟨2, ![8192, 2048]⟩ : Shape).Idx → EReal) (w b : (⟨2, ![8, 2048]⟩ : Shape).Idx → EReal)
  (RW : (⟨3, ![8, 2048, 128]⟩ : Shape).Idx → EReal) (β : (⟨2, ![8, 128]⟩ : Shape).Idx → EReal)
  (x0 : Vec Ideal S128x2048 .f32) (x1 x2 : Vec Ideal S8x2048 .f32) (x3 : Vec Ideal S8x2048x128 .f32)
  (x4 : Vec Ideal S8x128 .f32) (ρ : Fin 128 → Fin 8192)
  (h0 : ∀ (p : Fin 128) (k : Fin 2048), x0 (ix2 p k) = X (ix2 (ρ p) k)) (h1 : x1 = w) (h2 : x2 = b)
  (h3 : x3 = RW) (h4 : x4 = β)
include h0 h1 h2

/-- Row `p` of the block, standardised, scaled and shifted, is `newX` at row `ρ p`. -/
theorem newx_point (r : Fin 8) (p : Fin 128) (d : Fin 2048) :
    MainBlocks.blockNewX x0 x1 x2 (ix3 r p d) = Cert.Spec.newX X w b (ix3 r (ρ p) d) := by
  subst h1 h2
  show Cert.Spec.normed (fun k : Fin 2048 => x0 (ix2 p k)) d * x1 (ix2 r d) + x2 (ix2 r d)
    = Cert.Spec.normed (fun k : Fin 2048 => X (ix2 (ρ p) k)) d * x1 (ix2 r d) + x2 (ix2 r d)
  rw [show (fun k : Fin 2048 => x0 (ix2 p k)) = fun k : Fin 2048 => X (ix2 (ρ p) k) from funext fun k => h0 p k]

include h3 h4

/-- The block's product with the weights plus the bias is `logits` at row `ρ p`. -/
theorem logits_point (r : Fin 8) (p : Fin 128) (a : Fin 128) :
    MainBlocks.blockLogits x0 x1 x2 x3 x4 (ix3 r p a)
      = Cert.Spec.logits (Cert.Spec.newX X w b) RW β (ix3 r (ρ p) a) := by
  subst h3 h4
  show (∑ k : Fin 2048, MainBlocks.blockNewX x0 x1 x2 (ix3 r p k) * x3 (ix3 r k a)) + x4 (ix2 r a)
    = (∑ k : Fin 2048, Cert.Spec.newX X w b (ix3 r (ρ p) k) * x3 (ix3 r k a)) + x4 (ix2 r a)
  refine congrArg (· + x4 (ix2 r a)) (Finset.sum_congr rfl fun k _ => ?_)
  rw [newx_point X w b x0 x1 x2 ρ h0 h1 h2 r p k]

/-- The softmax of a row of the block's logits is `probs` at row `ρ p`. -/
theorem probs_point (r : Fin 8) (p : Fin 128) (a : Fin 128) :
    MainBlocks.blockProbs x0 x1 x2 x3 x4 (ix3 r p a)
      = Cert.Spec.probs (Cert.Spec.logits (Cert.Spec.newX X w b) RW β) (ix3 r (ρ p) a) := by
  show Cert.Spec.softmax (fun a' : Fin 128 => MainBlocks.blockLogits x0 x1 x2 x3 x4 (ix3 r p a')) a
    = Cert.Spec.softmax (fun a' : Fin 128 => Cert.Spec.logits (Cert.Spec.newX X w b) RW β (ix3 r (ρ p) a')) a
  exact congrArg (fun f => Cert.Spec.softmax f a)
    (funext fun a' => logits_point X w b RW β x0 x1 x2 x3 x4 ρ h0 h1 h2 h3 h4 r p a')

end Point

/-! ## What a point writes back -/

section Arrays

variable (V : (c : Dev nD) → (b : Ref sig .tc) → Buf (Elt Ideal) ((c : Thread nD τ).loc b))

/-- A grid point's number is below 64. -/
theorem lt64 (t : Fin cfg1.N) : t.val < 64 := lt_of_lt_of_eq t.isLt N_1

/-- Row `p` of point `t`'s block of `x` is row `128 t + p` of `x`. -/
def rowOf (t : Fin cfg1.N) (p : Fin 128) : Fin 8192 :=
  ⟨t.val * 128 + p.val, by have := lt64 t; have := p.isLt; omega⟩

/-- Point `t`'s block of `x`, read at `(p, k)`. -/
theorem x_block (c : Dev nD) (t : Fin cfg1.N) (p : Fin 128) (k : Fin 2048) :
    iblk1 V c 0 t (ix2 p k) = V c main_arg0 (ix2 (rowOf t p) k) := by
  obtain ⟨e0, e1, -⟩ := idx_facts t
  show V c main_arg0 (((cfg1.win 0).blk t).view.emb (ix2 p k)) = _
  refine congrArg (V c main_arg0) (ix2_ext _ (rowOf t p) k ?_ ?_)
  · show win1_0.index t (0 : Fin 2) * 128 + 1 * p.val = t.val * 128 + p.val
    rw [e0]; omega
  · show win1_0.index t (1 : Fin 2) * 2048 + 1 * k.val = k.val
    rw [e1]; omega

/-- The scale table is staged whole. -/
theorem w_block (c : Dev nD) (t : Fin cfg1.N) : iblk1 V c 1 t = V c main_arg1 := by
  obtain ⟨-, -, e0, e1, -⟩ := idx_facts t
  funext y
  show V c main_arg1 (((cfg1.win 1).blk t).view.emb y) = V c main_arg1 y
  refine congrArg (V c main_arg1) (funext fun a => Fin.ext ?_)
  match a with
  | ⟨0, _⟩ => show win1_1.index t (0 : Fin 2) * 8 + 1 * (y 0).val = (y 0).val; rw [e0]; omega
  | ⟨1, _⟩ => show win1_1.index t (1 : Fin 2) * 2048 + 1 * (y 1).val = (y 1).val; rw [e1]; omega

/-- The shift table is staged whole. -/
theorem b_block (c : Dev nD) (t : Fin cfg1.N) : iblk1 V c 2 t = V c main_arg2 := by
  obtain ⟨-, -, -, -, e0, e1, -⟩ := idx_facts t
  funext y
  show V c main_arg2 (((cfg1.win 2).blk t).view.emb y) = V c main_arg2 y
  refine congrArg (V c main_arg2) (funext fun a => Fin.ext ?_)
  match a with
  | ⟨0, _⟩ => show win1_2.index t (0 : Fin 2) * 8 + 1 * (y 0).val = (y 0).val; rw [e0]; omega
  | ⟨1, _⟩ => show win1_2.index t (1 : Fin 2) * 2048 + 1 * (y 1).val = (y 1).val; rw [e1]; omega

/-- The normalised weights are staged whole. -/
theorem rw_block (c : Dev nD) (t : Fin cfg1.N) : iblk1 V c 3 t = V c main_v2 := by
  obtain ⟨-, -, -, -, -, -, e0, e1, e2, -⟩ := idx_facts t
  funext y
  show V c main_v2 (((cfg1.win 3).blk t).view.emb y) = V c main_v2 y
  refine congrArg (V c main_v2) (funext fun a => Fin.ext ?_)
  match a with
  | ⟨0, _⟩ => show win1_3.index t (0 : Fin 3) * 8 + 1 * (y 0).val = (y 0).val; rw [e0]; omega
  | ⟨1, _⟩ => show win1_3.index t (1 : Fin 3) * 2048 + 1 * (y 1).val = (y 1).val; rw [e1]; omega
  | ⟨2, _⟩ => show win1_3.index t (2 : Fin 3) * 128 + 1 * (y 2).val = (y 2).val; rw [e2]; omega

/-- The bias table is staged whole. -/
theorem bias_block (c : Dev nD) (t : Fin cfg1.N) : iblk1 V c 4 t = V c main_arg6 := by
  obtain ⟨-, -, -, -, -, -, -, -, -, e0, e1, -⟩ := idx_facts t
  funext y
  show V c main_arg6 (((cfg1.win 4).blk t).view.emb y) = V c main_arg6 y
  refine congrArg (V c main_arg6) (funext fun a => Fin.ext ?_)
  match a with
  | ⟨0, _⟩ => show win1_4.index t (0 : Fin 2) * 8 + 1 * (y 0).val = (y 0).val; rw [e0]; omega
  | ⟨1, _⟩ => show win1_4.index t (1 : Fin 2) * 128 + 1 * (y 1).val = (y 1).val; rw [e1]; omega

/-- Entry `(r, p, d)` of point `t`'s block of the first output is entry `(r, 128 t + p, d)` of the array. -/
theorem out5_emb (t : Fin cfg1.N) (r : Fin 8) (p : Fin 128) (d : Fin 2048) :
    ((cfg1.win 5).blk t).view.emb (ix3 r p d) = ix3 r (rowOf t p) d := by
  obtain ⟨-, -, -, -, -, -, -, -, -, -, -, e0, e1, e2, -⟩ := idx_facts t
  refine ix3_ext _ r (rowOf t p) d ?_ ?_ ?_
  · show win1_5.index t (0 : Fin 3) * 8 + 1 * r.val = r.val
    rw [e0]; omega
  · show win1_5.index t (1 : Fin 3) * 128 + 1 * p.val = t.val * 128 + p.val
    rw [e1]; omega
  · show win1_5.index t (2 : Fin 3) * 2048 + 1 * d.val = d.val
    rw [e2]; omega

/-- The same for the second output. -/
theorem out6_emb (t : Fin cfg1.N) (r : Fin 8) (p : Fin 128) (a : Fin 128) :
    ((cfg1.win 6).blk t).view.emb (ix3 r p a) = ix3 r (rowOf t p) a := by
  obtain ⟨-, -, -, -, -, -, -, -, -, -, -, -, -, -, e0, e1, e2, -⟩ := idx_facts t
  refine ix3_ext _ r (rowOf t p) a ?_ ?_ ?_
  · show win1_6.index t (0 : Fin 3) * 8 + 1 * r.val = r.val
    rw [e0]; omega
  · show win1_6.index t (1 : Fin 3) * 128 + 1 * p.val = t.val * 128 + p.val
    rw [e1]; omega
  · show win1_6.index t (2 : Fin 3) * 128 + 1 * a.val = a.val
    rw [e2]; omega

/-- The same for the third output. -/
theorem out7_emb (t : Fin cfg1.N) (r : Fin 8) (p : Fin 128) (a : Fin 128) :
    ((cfg1.win 7).blk t).view.emb (ix3 r p a) = ix3 r (rowOf t p) a := by
  obtain ⟨-, -, -, -, -, -, -, -, -, -, -, -, -, -, -, -, -, e0, e1, e2⟩ := idx_facts t
  refine ix3_ext _ r (rowOf t p) a ?_ ?_ ?_
  · show win1_7.index t (0 : Fin 3) * 8 + 1 * r.val = r.val
    rw [e0]; omega
  · show win1_7.index t (1 : Fin 3) * 128 + 1 * p.val = t.val * 128 + p.val
    rw [e1]; omega
  · show win1_7.index t (2 : Fin 3) * 128 + 1 * a.val = a.val
    rw [e2]; omega

/-- Point `t` writes back block `t` of `newX` of the arrays the region finds. -/
theorem flushed5_eq (c : Dev nD) (t : Fin cfg1.N) :
    (dat1 (F := Ideal) V c).flushed 5 t
      = ((cfg1.win 5).blk t).view.read (Elt Ideal)
          (Cert.Spec.newX (V c main_arg0) (V c main_arg1) (V c main_arg2)) := by
  show (cfg1.win 5).cut (grid1.coords t) ((dat1 V c).after 5 t) = _
  rw [after1_5, MainBlocks.newx_block (iblk1 V c 0 t) (iblk1 V c 1 t) (iblk1 V c 2 t) (iblk1 V c 3 t) (iblk1 V c 4 t)]
  refine funext fun (y : S8x128x2048.Idx) => ?_
  obtain ⟨r, p, d, rfl⟩ : ∃ (r : Fin 8) (p : Fin 128) (d : Fin 2048), y = ix3 r p d := ⟨y 0, y 1, y 2, eq_ix3 y⟩
  show MainBlocks.blockNewX (iblk1 V c 0 t) (iblk1 V c 1 t) (iblk1 V c 2 t) (ix3 r p d)
    = Cert.Spec.newX (V c main_arg0) (V c main_arg1) (V c main_arg2) (((cfg1.win 5).blk t).view.emb (ix3 r p d))
  rw [out5_emb t r p d]
  exact newx_point (V c main_arg0) (V c main_arg1) (V c main_arg2) (iblk1 V c 0 t) (iblk1 V c 1 t) (iblk1 V c 2 t)
    (rowOf t) (x_block V c t) (w_block V c t) (b_block V c t) r p d

/-- Point `t` writes back block `t` of `logits` of the arrays the region finds. -/
theorem flushed6_eq (c : Dev nD) (t : Fin cfg1.N) :
    (dat1 (F := Ideal) V c).flushed 6 t
      = ((cfg1.win 6).blk t).view.read (Elt Ideal)
          (Cert.Spec.logits (Cert.Spec.newX (V c main_arg0) (V c main_arg1) (V c main_arg2)) (V c main_v2)
            (V c main_arg6)) := by
  show (cfg1.win 6).cut (grid1.coords t) ((dat1 V c).after 6 t) = _
  rw [after1_6, MainBlocks.logits_block (iblk1 V c 0 t) (iblk1 V c 1 t) (iblk1 V c 2 t) (iblk1 V c 3 t) (iblk1 V c 4 t)]
  refine funext fun (y : S8x128x128.Idx) => ?_
  obtain ⟨r, p, a, rfl⟩ : ∃ (r : Fin 8) (p : Fin 128) (a : Fin 128), y = ix3 r p a := ⟨y 0, y 1, y 2, eq_ix3 y⟩
  show MainBlocks.blockLogits (iblk1 V c 0 t) (iblk1 V c 1 t) (iblk1 V c 2 t) (iblk1 V c 3 t) (iblk1 V c 4 t) (ix3 r p a)
    = Cert.Spec.logits (Cert.Spec.newX (V c main_arg0) (V c main_arg1) (V c main_arg2)) (V c main_v2) (V c main_arg6)
        (((cfg1.win 6).blk t).view.emb (ix3 r p a))
  rw [out6_emb t r p a]
  exact logits_point (V c main_arg0) (V c main_arg1) (V c main_arg2) (V c main_v2) (V c main_arg6)
    (iblk1 V c 0 t) (iblk1 V c 1 t) (iblk1 V c 2 t) (iblk1 V c 3 t) (iblk1 V c 4 t)
    (rowOf t) (x_block V c t) (w_block V c t) (b_block V c t) (rw_block V c t) (bias_block V c t) r p a

/-- Point `t` writes back block `t` of `probs` of the arrays the region finds. -/
theorem flushed7_eq (c : Dev nD) (t : Fin cfg1.N) :
    (dat1 (F := Ideal) V c).flushed 7 t
      = ((cfg1.win 7).blk t).view.read (Elt Ideal)
          (Cert.Spec.probs (Cert.Spec.logits (Cert.Spec.newX (V c main_arg0) (V c main_arg1) (V c main_arg2))
            (V c main_v2) (V c main_arg6))) := by
  show (cfg1.win 7).cut (grid1.coords t) ((dat1 V c).after 7 t) = _
  rw [after1_7, MainBlocks.probs_block (iblk1 V c 0 t) (iblk1 V c 1 t) (iblk1 V c 2 t) (iblk1 V c 3 t) (iblk1 V c 4 t)]
  refine funext fun (y : S8x128x128.Idx) => ?_
  obtain ⟨r, p, a, rfl⟩ : ∃ (r : Fin 8) (p : Fin 128) (a : Fin 128), y = ix3 r p a := ⟨y 0, y 1, y 2, eq_ix3 y⟩
  show MainBlocks.blockProbs (iblk1 V c 0 t) (iblk1 V c 1 t) (iblk1 V c 2 t) (iblk1 V c 3 t) (iblk1 V c 4 t) (ix3 r p a)
    = Cert.Spec.probs (Cert.Spec.logits (Cert.Spec.newX (V c main_arg0) (V c main_arg1) (V c main_arg2)) (V c main_v2)
        (V c main_arg6)) (((cfg1.win 7).blk t).view.emb (ix3 r p a))
  rw [out7_emb t r p a]
  exact probs_point (V c main_arg0) (V c main_arg1) (V c main_arg2) (V c main_v2) (V c main_arg6)
    (iblk1 V c 0 t) (iblk1 V c 1 t) (iblk1 V c 2 t) (iblk1 V c 3 t) (iblk1 V c 4 t)
    (rowOf t) (x_block V c t) (w_block V c t) (b_block V c t) (rw_block V c t) (bias_block V c t) r p a

/-! ## The blocks tile the arrays

Row `n` of an output lies in the block of point `n / 128`; the other two axes are whole. -/

/-- The point whose block holds row `n`. -/
def ptOf (n : ℕ) (hn : n < 8192) : Fin cfg1.N :=
  ⟨n / 128, lt_of_lt_of_eq (show n / 128 < 64 by omega) N_1.symm⟩

/-- An index of the first output is in point `t`'s block iff each coordinate is in the block's range on its axis. -/
theorem mem_blk5 (t : Fin cfg1.N) (i : S8x8192x2048.Idx) :
    i ∈ ((cfg1.win 5).blk t).view.set ↔ ∀ a : Fin 3, win1_5.index t a * S8x128x2048.size a ≤ (i a).val
      ∧ (i a).val < win1_5.index t a * S8x128x2048.size a + S8x128x2048.size a := by
  show i ∈ ((View.whole main_v3_0).slice (win1_5.rect t)).set ↔ _
  rw [View.set_slice_whole, Rect.mem_set_unit]
  exact Iff.rfl

/-- The same for the second output. -/
theorem mem_blk6 (t : Fin cfg1.N) (i : S8x8192x128.Idx) :
    i ∈ ((cfg1.win 6).blk t).view.set ↔ ∀ a : Fin 3, win1_6.index t a * S8x128x128.size a ≤ (i a).val
      ∧ (i a).val < win1_6.index t a * S8x128x128.size a + S8x128x128.size a := by
  show i ∈ ((View.whole main_v3_1).slice (win1_6.rect t)).set ↔ _
  rw [View.set_slice_whole, Rect.mem_set_unit]
  exact Iff.rfl

/-- The same for the third output. -/
theorem mem_blk7 (t : Fin cfg1.N) (i : S8x8192x128.Idx) :
    i ∈ ((cfg1.win 7).blk t).view.set ↔ ∀ a : Fin 3, win1_7.index t a * S8x128x128.size a ≤ (i a).val
      ∧ (i a).val < win1_7.index t a * S8x128x128.size a + S8x128x128.size a := by
  show i ∈ ((View.whole main_v3_2).slice (win1_7.rect t)).set ↔ _
  rw [View.set_slice_whole, Rect.mem_set_unit]
  exact Iff.rfl

/-- Every index of the first output is in some point's block. -/
theorem cover5 (i : S8x8192x2048.Idx) :
    ∃ t : Fin cfg1.N, (cfg1.win 5).flush t = true ∧ i ∈ ((cfg1.win 5).blk t).view.set := by
  have h0 : (i 0).val < 8 := (i 0).isLt
  have h1 : (i 1).val < 8192 := (i 1).isLt
  have h2 : (i 2).val < 2048 := (i 2).isLt
  obtain ⟨-, -, -, -, -, -, -, -, -, -, -, e0, e1, e2, -⟩ := idx_facts (ptOf (i 1).val h1)
  have e1' : win1_5.index (ptOf (i 1).val h1) (1 : Fin 3) = (i 1).val / 128 := e1
  refine ⟨ptOf (i 1).val h1, flush1_5 _, ?_⟩
  rw [mem_blk5]
  intro a
  match a with
  | ⟨0, _⟩ =>
    show win1_5.index (ptOf (i 1).val h1) (0 : Fin 3) * 8 ≤ (i 0).val
      ∧ (i 0).val < win1_5.index (ptOf (i 1).val h1) (0 : Fin 3) * 8 + 8
    rw [e0]; omega
  | ⟨1, _⟩ =>
    show win1_5.index (ptOf (i 1).val h1) (1 : Fin 3) * 128 ≤ (i 1).val
      ∧ (i 1).val < win1_5.index (ptOf (i 1).val h1) (1 : Fin 3) * 128 + 128
    rw [e1']; omega
  | ⟨2, _⟩ =>
    show win1_5.index (ptOf (i 1).val h1) (2 : Fin 3) * 2048 ≤ (i 2).val
      ∧ (i 2).val < win1_5.index (ptOf (i 1).val h1) (2 : Fin 3) * 2048 + 2048
    rw [e2]; omega

/-- Every index of the second output is in some point's block. -/
theorem cover6 (i : S8x8192x128.Idx) :
    ∃ t : Fin cfg1.N, (cfg1.win 6).flush t = true ∧ i ∈ ((cfg1.win 6).blk t).view.set := by
  have h0 : (i 0).val < 8 := (i 0).isLt
  have h1 : (i 1).val < 8192 := (i 1).isLt
  have h2 : (i 2).val < 128 := (i 2).isLt
  obtain ⟨-, -, -, -, -, -, -, -, -, -, -, -, -, -, e0, e1, e2, -⟩ := idx_facts (ptOf (i 1).val h1)
  have e1' : win1_6.index (ptOf (i 1).val h1) (1 : Fin 3) = (i 1).val / 128 := e1
  refine ⟨ptOf (i 1).val h1, flush1_6 _, ?_⟩
  rw [mem_blk6]
  intro a
  match a with
  | ⟨0, _⟩ =>
    show win1_6.index (ptOf (i 1).val h1) (0 : Fin 3) * 8 ≤ (i 0).val
      ∧ (i 0).val < win1_6.index (ptOf (i 1).val h1) (0 : Fin 3) * 8 + 8
    rw [e0]; omega
  | ⟨1, _⟩ =>
    show win1_6.index (ptOf (i 1).val h1) (1 : Fin 3) * 128 ≤ (i 1).val
      ∧ (i 1).val < win1_6.index (ptOf (i 1).val h1) (1 : Fin 3) * 128 + 128
    rw [e1']; omega
  | ⟨2, _⟩ =>
    show win1_6.index (ptOf (i 1).val h1) (2 : Fin 3) * 128 ≤ (i 2).val
      ∧ (i 2).val < win1_6.index (ptOf (i 1).val h1) (2 : Fin 3) * 128 + 128
    rw [e2]; omega

/-- Every index of the third output is in some point's block. -/
theorem cover7 (i : S8x8192x128.Idx) :
    ∃ t : Fin cfg1.N, (cfg1.win 7).flush t = true ∧ i ∈ ((cfg1.win 7).blk t).view.set := by
  have h0 : (i 0).val < 8 := (i 0).isLt
  have h1 : (i 1).val < 8192 := (i 1).isLt
  have h2 : (i 2).val < 128 := (i 2).isLt
  obtain ⟨-, -, -, -, -, -, -, -, -, -, -, -, -, -, -, -, -, e0, e1, e2⟩ := idx_facts (ptOf (i 1).val h1)
  have e1' : win1_7.index (ptOf (i 1).val h1) (1 : Fin 3) = (i 1).val / 128 := e1
  refine ⟨ptOf (i 1).val h1, flush1_7 _, ?_⟩
  rw [mem_blk7]
  intro a
  match a with
  | ⟨0, _⟩ =>
    show win1_7.index (ptOf (i 1).val h1) (0 : Fin 3) * 8 ≤ (i 0).val
      ∧ (i 0).val < win1_7.index (ptOf (i 1).val h1) (0 : Fin 3) * 8 + 8
    rw [e0]; omega
  | ⟨1, _⟩ =>
    show win1_7.index (ptOf (i 1).val h1) (1 : Fin 3) * 128 ≤ (i 1).val
      ∧ (i 1).val < win1_7.index (ptOf (i 1).val h1) (1 : Fin 3) * 128 + 128
    rw [e1']; omega
  | ⟨2, _⟩ =>
    show win1_7.index (ptOf (i 1).val h1) (2 : Fin 3) * 128 ≤ (i 2).val
      ∧ (i 2).val < win1_7.index (ptOf (i 1).val h1) (2 : Fin 3) * 128 + 128
    rw [e2]; omega

/-! ## The three arrays after the region -/

/-- The first output array is `newX` of the arrays the region finds. -/
theorem final_newx (c : Dev nD) :
    (dat1 (F := Ideal) V c).arrAt 5 cfg1.N = Cert.Spec.newX (V c main_arg0) (V c main_arg1) (V c main_arg2) :=
  (dat1 (F := Ideal) V c).arrAt_eq_of_cover 5 (Cert.Spec.newX (V c main_arg0) (V c main_arg1) (V c main_arg2))
    (fun t _ => flushed5_eq V c t) cover5

/-- The second output array is `logits`. -/
theorem final_logits (c : Dev nD) :
    (dat1 (F := Ideal) V c).arrAt 6 cfg1.N
      = Cert.Spec.logits (Cert.Spec.newX (V c main_arg0) (V c main_arg1) (V c main_arg2)) (V c main_v2) (V c main_arg6) :=
  (dat1 (F := Ideal) V c).arrAt_eq_of_cover 6
    (Cert.Spec.logits (Cert.Spec.newX (V c main_arg0) (V c main_arg1) (V c main_arg2)) (V c main_v2) (V c main_arg6))
    (fun t _ => flushed6_eq V c t) cover6

/-- The third output array is `probs` of the logits. -/
theorem final_probs (c : Dev nD) :
    (dat1 (F := Ideal) V c).arrAt 7 cfg1.N
      = Cert.Spec.probs (Cert.Spec.logits (Cert.Spec.newX (V c main_arg0) (V c main_arg1) (V c main_arg2)) (V c main_v2)
          (V c main_arg6)) :=
  (dat1 (F := Ideal) V c).arrAt_eq_of_cover 7
    (Cert.Spec.probs (Cert.Spec.logits (Cert.Spec.newX (V c main_arg0) (V c main_arg1) (V c main_arg2)) (V c main_v2)
      (V c main_arg6)))
    (fun t _ => flushed7_eq V c t) cover7

end Arrays

end Cert.KernelIdeal.MainValue

end
-- ==== Proof.LibColumnSum.lean ====
/-
  A sum down the columns of a matrix, read at an index, on the extended reals.

  A kernel's sum along the FIRST axis of an `[a, b]` array into `[b]` (`jnp.sum(x, axis=0)`), from the zero accumulator, at
  column `q`, is the sum of that column's `a` entries. (The companion along the second axis reads a row sum.)
-/
import Idealize.ShloMosaic.Lib.ValueIdx
import Idealize.ShloMosaic.PureOps.Ideal.Laws

noncomputable section

namespace Cert.Lib.ColumnSum

open Idealize.ShloMosaic Idealize.ShloMosaic.ValueIdx

/-- A sum along the first axis of an `[a, b]` array, at column `q`, is the sum of that column's `a` entries. -/
theorem colsum_apply {a b : ℕ} (x : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ x 0x00000000#32 h hφ hacc (ix1 q) = ∑ k : Fin a, x (ix2 k q) := by
  refine (Ideal.multiReduction_add_single x 0x00000000#32 h hφ hacc (ix1 q)).trans ?_
  refine Finset.sum_congr rfl fun k _ => congrArg x ?_
  funext d
  apply Fin.ext
  match d with
  | ⟨0, _⟩ => rfl
  | ⟨1, _⟩ => rfl

end Cert.Lib.ColumnSum

end
-- ==== Proof.WeightNorm.lean ====
/-
  The value of the weight-standardisation kernel.

  For each of the 8 routers the kernel takes that router's 2048 × 128 weight matrix and, column by column,
  subtracts the column's mean (the sum of its 2048 entries divided by 2048), multiplies by the inverse square
  root of the column's variance (the mean of the squared deviations) plus ε, then scales row `d` by `g[r, d]`
  and shifts it by `c[r, d]`. Here this is read off the kernel's arithmetic one entry at a time: first the column
  sum, the mean row, the deviations, the variance row and the scale row, then the whole entry; then the 8 blocks
  the grid writes are put together into the whole output array, which is `Cert.Spec.rwNorm` of the three arrays
  the kernel reads.
-/
import proofs.«122798_j5222680232633_2_alg».proof.Proof.Gen.KernelIdeal.Frame
import proofs.«122798_j5222680232633_2_alg».proof.Proof.Spec
import proofs.«122798_j5222680232633_2_alg».proof.Proof.LibKeepdimsColumn
import proofs.«122798_j5222680232633_2_alg».proof.Proof.LibColumnSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.WeightNorm

open Cert.KernelIdeal Cert.KernelIdeal.Gen
open Idealize.ShloMosaic Idealize.ShloMosaic.TcCoe Idealize.ShloMosaic.ValueIdx
open Idealize.SL.Sem

/-! ## The kernel's arithmetic, stage by stage

Each stage is named as a function of the loaded weight block and read at explicit coordinates; `f a` below is
column `a` of the block as a function of the row. -/

/-- Column `a` of a loaded `[1, 2048, 128]` block, as a function of the row. -/
abbrev col (v0 : Vec Ideal S1x2048x128 .f32) (a : Fin 128) : Fin 2048 → EReal := fun k => v0 (ix3 (0 : Fin 1) k a)

/-- The block as a matrix. -/
def mat (v0 : Vec Ideal S1x2048x128 .f32) : FVec Ideal S2048x128 .f32 :=
  shapeCast S2048x128 v0 shapeCasts_S1x2048x128_S2048x128

theorem mat_apply (v0 : Vec Ideal S1x2048x128 .f32) (d : Fin 2048) (a : Fin 128) :
    mat v0 (ix2 d a) = col v0 a d :=
  shapeCast_1ab_ab_apply v0 shapeCasts_S1x2048x128_S2048x128 d a

/-- The row of column sums of a matrix, divided by 2048. -/
def meanOfCols (x : FVec Ideal S2048x128 .f32) : FVec Ideal S1x128 .f32 :=
  divf (shapeCast S1x128 (multiReduction (F := Ideal) .add [0] S128 x 0x00000000#32 reduces_S2048x128_S128 (.inl rfl) rfl)
      shapeCasts_S128_S1x128)
    (broadcast S1x128 (Scalar.ofBits (F := Ideal) .f32 0x45000000#32))

theorem meanOfCols_apply (x : FVec Ideal S2048x128 .f32) (a : Fin 128) :
    meanOfCols x (ix2 (0 : Fin 1) a) = Ideal.div (∑ k : Fin 2048, x (ix2 k a)) Cert.Spec.extent := by
  show Ideal.div (shapeCast S1x128 (multiReduction (F := Ideal) .add [0] S128 x 0x00000000#32 reduces_S2048x128_S128 (.inl rfl) rfl)
      shapeCasts_S128_S1x128 (ix2 (0 : Fin 1) a)) Cert.Spec.extent = _
  rw [shapeCast_a_1a_apply, Cert.Lib.ColumnSum.colsum_apply]

/-- The mean row of the block: entry `a` is the mean of column `a`. -/
def meanRow (v0 : Vec Ideal S1x2048x128 .f32) : FVec Ideal S1x128 .f32 := meanOfCols (mat v0)

theorem meanRow_apply (v0 : Vec Ideal S1x2048x128 .f32) (a : Fin 128) :
    meanRow v0 (ix2 (0 : Fin 1) a) = Cert.Spec.mean (col v0 a) := by
  unfold meanRow
  rw [meanOfCols_apply]
  unfold Cert.Spec.mean
  exact congrArg (fun s => Ideal.div s Cert.Spec.extent) (Finset.sum_congr rfl fun k _ => mat_apply v0 k a)

/-- The deviations from the column means. -/
def centred (v0 : Vec Ideal S1x2048x128 .f32) : FVec Ideal S2048x128 .f32 :=
  subf (mat v0) (broadcastTo S2048x128 (meanRow v0) broadcasts_S1x128_S2048x128)

theorem centred_apply (v0 : Vec Ideal S1x2048x128 .f32) (d : Fin 2048) (a : Fin 128) :
    centred v0 (ix2 d a) = col v0 a d - Cert.Spec.mean (col v0 a) := by
  show mat v0 (ix2 d a) - broadcastTo S2048x128 (meanRow v0) broadcasts_S1x128_S2048x128 (ix2 d a) = _
  rw [broadcastTo_1b_ab_apply, mat_apply, meanRow_apply]

/-- The variance row: entry `a` is the mean of the squared deviations of column `a`. -/
def varRow (v0 : Vec Ideal S1x2048x128 .f32) : FVec Ideal S1x128 .f32 :=
  meanOfCols (mulf (centred v0) (centred v0))

theorem varRow_apply (v0 : Vec Ideal S1x2048x128 .f32) (a : Fin 128) :
    varRow v0 (ix2 (0 : Fin 1) a) = Cert.Spec.var (col v0 a) := by
  unfold varRow
  rw [meanOfCols_apply]
  unfold Cert.Spec.var
  refine congrArg (fun s => Ideal.div s Cert.Spec.extent) (Finset.sum_congr rfl fun k _ => ?_)
  show centred v0 (ix2 k a) * centred v0 (ix2 k a) = _
  rw [centred_apply]

/-- The scale row: the inverse square root of the variance plus ε. -/
def scaleRow (v0 : Vec Ideal S1x2048x128 .f32) : FVec Ideal S1x128 .f32 :=
  rsqrt (addf (varRow v0) (broadcast S1x128 (Scalar.ofBits (F := Ideal) .f32 0x3727C5AC#32)))

theorem scaleRow_apply (v0 : Vec Ideal S1x2048x128 .f32) (a : Fin 128) :
    scaleRow v0 (ix2 (0 : Fin 1) a) = Ideal.rsqrt (Cert.Spec.var (col v0 a) + Cert.Spec.offset) := by
  show Ideal.rsqrt (varRow v0 (ix2 (0 : Fin 1) a) + Cert.Spec.offset) = _
  rw [varRow_apply]

/-- The kernel's stored value is these stages put together. -/
theorem payload_eq (v0 : Vec Ideal S1x2048x128 .f32) (v2 v4 : Vec Ideal S1x2048x1 .f32) :
    k0_pay1 v0 v2 v4
      = shapeCast S1x2048x128
          (addf (mulf (mulf (centred v0) (broadcastTo S2048x128 (scaleRow v0) broadcasts_S1x128_S2048x128))
              (broadcastTo S2048x128 (shapeCast S2048x1 v2 shapeCasts_S1x2048x1_S2048x1) broadcasts_S2048x1_S2048x128))
            (broadcastTo S2048x128 (shapeCast S2048x1 v4 shapeCasts_S1x2048x1_S2048x1) broadcasts_S2048x1_S2048x128))
          shapeCasts_S2048x128_S1x2048x128 := rfl

/-- THE STORED VALUE AT AN ENTRY: row `d`, column `a` of the block is column `a` standardised, at `d`, times the
    scale of row `d` plus its shift. -/
theorem payload_apply (v0 : Vec Ideal S1x2048x128 .f32) (v2 v4 : Vec Ideal S1x2048x1 .f32) (d : Fin 2048) (a : Fin 128) :
    k0_pay1 v0 v2 v4 (ix3 (0 : Fin 1) d a)
      = Cert.Spec.normed (col v0 a) d * v2 (ix3 (0 : Fin 1) d (0 : Fin 1)) + v4 (ix3 (0 : Fin 1) d (0 : Fin 1)) := by
  rw [payload_eq, shapeCast_ab_1ab_apply]
  show centred v0 (ix2 d a) * broadcastTo S2048x128 (scaleRow v0) broadcasts_S1x128_S2048x128 (ix2 d a)
        * broadcastTo S2048x128 (shapeCast S2048x1 v2 shapeCasts_S1x2048x1_S2048x1) broadcasts_S2048x1_S2048x128 (ix2 d a)
      + broadcastTo S2048x128 (shapeCast S2048x1 v4 shapeCasts_S1x2048x1_S2048x1) broadcasts_S2048x1_S2048x128 (ix2 d a) = _
  rw [broadcastTo_1b_ab_apply, Cert.Gcn.Lib.broadcastTo_a1_ab_apply, Cert.Gcn.Lib.broadcastTo_a1_ab_apply,
    shapeCast_1ab_ab_apply, shapeCast_1ab_ab_apply, centred_apply, scaleRow_apply]
  rfl

/-! ## One block against the whole arrays

A block holds router `r`'s rows of the three arrays; then the stored value at `(d, a)` is the specification's
entry `(r, d, a)`. Stated over arbitrary blocks and arrays, with the reading of each block as hypotheses. -/

/-- If the weight block is router `r`'s matrix of `W`, and the two column blocks are router `r`'s columns of the
    reshaped scale and shift, the stored value at `(d, a)` is `rwNorm` at `(r, d, a)`. -/
theorem block_apply (W : S8x2048x128.Idx → EReal) (g3 c3 : S8x2048x1.Idx → EReal) (r : Fin 8)
    (v0 : Vec Ideal S1x2048x128 .f32) (v2 v4 : Vec Ideal S1x2048x1 .f32)
    (h0 : ∀ (k : Fin 2048) (a : Fin 128), v0 (ix3 (0 : Fin 1) k a) = W (ix3 r k a))
    (h2 : ∀ k : Fin 2048, v2 (ix3 (0 : Fin 1) k (0 : Fin 1)) = g3 (ix3 r k (0 : Fin 1)))
    (h4 : ∀ k : Fin 2048, v4 (ix3 (0 : Fin 1) k (0 : Fin 1)) = c3 (ix3 r k (0 : Fin 1)))
    (d : Fin 2048) (a : Fin 128) :
    k0_pay1 v0 v2 v4 (ix3 (0 : Fin 1) d a)
      = Cert.Spec.rwNorm W (fun j => g3 (ix3 (j 0) (j 1) (0 : Fin 1))) (fun j => c3 (ix3 (j 0) (j 1) (0 : Fin 1)))
          (ix3 r d a) := by
  have hc : col v0 a = fun k => W (ix3 r k a) := funext fun k => h0 k a
  rw [payload_apply, Cert.Spec.rwNorm_apply, h2, h4, hc]

/-! ## From the blocks to the array -/

section Array

variable (V : (c : Dev nD) → (b : Ref sig .tc) → Buf (Elt Ideal) ((c : Thread nD τ).loc b))

/-- What the output array is to hold: `rwNorm` of the weight array and of the scale and shift arrays, the latter
    read through their trailing unit axis. -/
abbrev target (c : Dev nD) : S8x2048x128.Idx → EReal :=
  Cert.Spec.rwNorm (V c main_arg3) (fun j => V c main_v0 (ix3 (j 0) (j 1) (0 : Fin 1)))
    (fun j => V c main_v1 (ix3 (j 0) (j 1) (0 : Fin 1)))

theorem zeros3 : (![0, 0, 0] : Fin 3 → Nat) = fun _ => 0 := funext fun a => by fin_cases a <;> rfl

/-- Point `t` of the grid works on router `t`: every window's block index there is `(t, 0, 0)`. -/
theorem index_at : ∀ t : Fin cfg0.N, t.val < 8
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Every router is some point's. -/
theorem index_onto : ∀ q : Fin 8, ∃ t : Fin cfg0.N,
    win0_3.index t (0 : Fin 3) = q.val ∧ win0_3.index t (1 : Fin 3) = 0 ∧ win0_3.index t (2 : Fin 3) = 0 :=
  (by decide +kernel : ∀ q : Fin 8, ∃ t : Fin grid0.N, _)

/-- WHAT POINT `t` WRITES BACK is block `t` of the target. -/
theorem flushed_eq (c : Dev nD) (t : Fin cfg0.N) :
    (dat0 (F := Ideal) V c).flushed 3 t = ((cfg0.win 3).blk t).view.read (Elt Ideal) (target V c) := by
  show (cfg0.win 3).cut (grid0.coords t) ((dat0 (F := Ideal) V c).after 3 t) = _
  rw [after0_3]
  unfold out0_3
  rw [View.canon_unit_zero zeros3]
  simp only [View.ld_unit_zero (S := S1x2048x128) zeros3, View.ld_unit_zero (S := S1x2048x1) zeros3]
  obtain ⟨ht, a0, a1, a2, b0, b1, b2, c0, c1, c2, o0, o1, o2⟩ := index_at t
  funext j
  obtain ⟨u, d, a, rfl⟩ : ∃ (u : Fin 1) (d : Fin 2048) (a : Fin 128), j = ix3 u d a := ⟨j 0, j 1, j 2, eq_ix3 j⟩
  obtain rfl : u = 0 := Subsingleton.elim _ _
  show k0_pay1 (iblk0 V c 0 t) (iblk0 V c 1 t) (iblk0 V c 2 t) (ix3 (0 : Fin 1) d a)
      = target V c (((cfg0.win 3).blk t).view.emb (ix3 (0 : Fin 1) d a))
  have hout : ((cfg0.win 3).blk t).view.emb (ix3 (0 : Fin 1) d a) = (ix3 (⟨t.val, ht⟩ : Fin 8) d a : S8x2048x128.Idx) := by
    funext ax; apply Fin.ext
    match ax with
    | ⟨0, _⟩ => show win0_3.index t (0 : Fin 3) * 1 + 1 * 0 = t.val; omega
    | ⟨1, _⟩ => show win0_3.index t (1 : Fin 3) * 2048 + 1 * d.val = d.val; omega
    | ⟨2, _⟩ => show win0_3.index t (2 : Fin 3) * 128 + 1 * a.val = a.val; omega
  rw [hout]
  refine block_apply (V c main_arg3) (V c main_v0) (V c main_v1) ⟨t.val, ht⟩ _ _ _ (fun k a' => ?_) (fun k => ?_) (fun k => ?_) d a
  · show V c main_arg3 (((cfg0.win 0).blk t).view.emb (ix3 (0 : Fin 1) k a')) = _
    refine congrArg (V c main_arg3) ?_
    funext ax; apply Fin.ext
    match ax with
    | ⟨0, _⟩ => show win0_0.index t (0 : Fin 3) * 1 + 1 * 0 = t.val; omega
    | ⟨1, _⟩ => show win0_0.index t (1 : Fin 3) * 2048 + 1 * k.val = k.val; omega
    | ⟨2, _⟩ => show win0_0.index t (2 : Fin 3) * 128 + 1 * a'.val = a'.val; omega
  · show V c main_v0 (((cfg0.win 1).blk t).view.emb (ix3 (0 : Fin 1) k (0 : Fin 1))) = _
    refine congrArg (V c main_v0) ?_
    funext ax; apply Fin.ext
    match ax with
    | ⟨0, _⟩ => show win0_1.index t (0 : Fin 3) * 1 + 1 * 0 = t.val; omega
    | ⟨1, _⟩ => show win0_1.index t (1 : Fin 3) * 2048 + 1 * k.val = k.val; omega
    | ⟨2, _⟩ => show win0_1.index t (2 : Fin 3) * 1 + 1 * 0 = 0; omega
  · show V c main_v1 (((cfg0.win 2).blk t).view.emb (ix3 (0 : Fin 1) k (0 : Fin 1))) = _
    refine congrArg (V c main_v1) ?_
    funext ax; apply Fin.ext
    match ax with
    | ⟨0, _⟩ => show win0_2.index t (0 : Fin 3) * 1 + 1 * 0 = t.val; omega
    | ⟨1, _⟩ => show win0_2.index t (1 : Fin 3) * 2048 + 1 * k.val = k.val; omega
    | ⟨2, _⟩ => show win0_2.index t (2 : Fin 3) * 1 + 1 * 0 = 0; omega

/-- An index of the output array is in point `t`'s block iff each coordinate is in the block's range on its axis. -/
theorem mem_blk (t : Fin cfg0.N) (i : S8x2048x128.Idx) :
    i ∈ ((cfg0.win 3).blk t).view.set ↔ ∀ a : Fin 3, win0_3.index t a * S1x2048x128.size a ≤ (i a).val
      ∧ (i a).val < win0_3.index t a * S1x2048x128.size a + S1x2048x128.size a := by
  show i ∈ ((View.whole main_v2).slice (win0_3.rect t)).set ↔ _
  rw [View.set_slice_whole, Rect.mem_set_unit]
  exact Iff.rfl

/-- The 8 blocks fill the output array: entry `(r, d, a)` lies in the block of the point that works on router `r`. -/
theorem covered (i : S8x2048x128.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 128 := (i 2).isLt
  obtain ⟨t, q0, q1, q2⟩ := index_onto ⟨(i 0).val, hi0⟩
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1
              have e : win0_3.index t (0 : Fin 3) = (i 0).val := q0
              omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 128 ≤ (i 2).val ∧ (i 2).val < win0_3.index t (2 : Fin 3) * 128 + 128; omega

/-- THE OUTPUT ARRAY after the region: every router's weight matrix standardised column by column, scaled and
    shifted row by row. -/
theorem final (c : Dev nD) :
    (dat0 (F := Ideal) V c).arrAt 3 cfg0.N
      = Cert.Spec.rwNorm (V c main_arg3) (fun j => V c main_v0 (ix3 (j 0) (j 1) (0 : Fin 1)))
          (fun j => V c main_v1 (ix3 (j 0) (j 1) (0 : Fin 1))) :=
  (dat0 (F := Ideal) V c).arrAt_eq_of_cover 3 (target V c) (fun t _ => flushed_eq V c t) covered

end Array

end Cert.KernelIdeal.WeightNorm

end
-- ==== Proof.LibTrailingUnit.lean ====
/-
  A trailing unit axis added by a shape cast, read at an index.

  An `[a, b]` array recast as `[a, b, 1]` (`x.reshape(a, b, 1)`, or a host reshape of the same shapes) reads, at
  `(i, j, u)`, the operand at `(i, j)`, whatever the unit coordinate `u`: both are position `i·b + j` in row-major order.
-/
import Idealize.ShloMosaic.Lib.Pipeline.Value
import Idealize.ShloMosaic.Lib.ValueIdx

noncomputable section

namespace Cert.Lib.TrailingUnit

open Idealize.ShloMosaic Idealize.ShloMosaic.ValueIdx

/-- An `[a, b]` array cast to `[a, b, 1]` reads, at `(i, j, u)`, the operand at `(i, j)`, whatever the unit
    coordinate `u`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

end Cert.Lib.TrailingUnit

end
-- ==== Proof.Boundary.lean ====
/-
  What the second region finds when it is entered, in terms of the memory the program was launched with.

  Before the first region two reshapes give the scale and shift arrays `[8, 2048]` a trailing unit axis; the first
  region then writes the standardised weights and touches nothing else. So when the second region is entered
  the four arguments it reads hold what they held at launch, and the weights array holds `Cert.Spec.rwNorm` of the
  launch contents of the weight, scale and shift arguments.
-/
import proofs.«122798_j5222680232633_2_alg».proof.Proof.Gen.KernelIdeal.Frame
import proofs.«122798_j5222680232633_2_alg».proof.Proof.Spec
import proofs.«122798_j5222680232633_2_alg».proof.Proof.WeightNorm
import proofs.«122798_j5222680232633_2_alg».proof.Proof.LibTrailingUnit
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Boundary

open Cert.KernelIdeal Cert.KernelIdeal.Gen
open Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg) (c : Dev nD)

/-! ## What the two reshapes leave alone -/

/-- A buffer that is neither reshape's result holds, after them, what it held at launch. -/
theorem kept_by_reshapes (b : Ref sig .tc) (h0 : b ≠ main_v0) (h1 : b ≠ main_v1) :
    W1 m ρ c (Proc.devRef .tc b) = W0 m ρ c (Proc.devRef .tc b) := by
  refine StableHlo.after_of_forall_not_mem (b := Proc.devRef .tc b) _ _ (List.forall_iff_forall_mem.mp ?_)
  simp only [hostOps0, List.Forall, StableHlo.reshape_writes, Finset.mem_singleton]
  exact ⟨StableHlo.devRef_ne_of_ne h0, StableHlo.devRef_ne_of_ne h1⟩

/-! ## The arguments the second region reads are as launched -/

theorem entry_arg0 : V2 m ρ c main_arg0 = m ((c : Thread nD τ).loc main_arg0) :=
  (W2_of_ne m ρ c main_arg0 (by decide)).trans (kept_by_reshapes m ρ c main_arg0 (by decide) (by decide))

theorem entry_arg1 : V2 m ρ c main_arg1 = m ((c : Thread nD τ).loc main_arg1) :=
  (W2_of_ne m ρ c main_arg1 (by decide)).trans (kept_by_reshapes m ρ c main_arg1 (by decide) (by decide))

theorem entry_arg2 : V2 m ρ c main_arg2 = m ((c : Thread nD τ).loc main_arg2) :=
  (W2_of_ne m ρ c main_arg2 (by decide)).trans (kept_by_reshapes m ρ c main_arg2 (by decide) (by decide))

theorem entry_arg6 : V2 m ρ c main_arg6 = m ((c : Thread nD τ).loc main_arg6) :=
  (W2_of_ne m ρ c main_arg6 (by decide)).trans (kept_by_reshapes m ρ c main_arg6 (by decide) (by decide))

/-! ## What the first region is entered with -/

/-- The weight argument is as launched when the first region is entered. -/
theorem first_weights : V1 m ρ c main_arg3 = m ((c : Thread nD τ).loc main_arg3) :=
  kept_by_reshapes m ρ c main_arg3 (by decide) (by decide)

/-- The reshaped scale array at `(r, d, 0)` is the scale argument at `(r, d)`. -/
theorem first_scale (r : Fin 8) (d : Fin 2048) :
    V1 m ρ c main_v0 (ix3 r d (0 : Fin 1)) = m ((c : Thread nD τ).loc main_arg4) (ix2 r d) := by
  have e : (V1 m ρ c main_v0 : S8x2048x1.Idx → EReal)
      = shapeCast S8x2048x1 (m ((c : Thread nD τ).loc main_arg4) : S8x2048.Idx → EReal) shapeCasts_S8x2048_S8x2048x1 := by
    show StableHlo.after hostOps0 (W0 m ρ c) (Proc.devRef .tc main_v0) = _
    after_results
    rfl
  exact (congrFun e _).trans (Cert.Lib.TrailingUnit.shapeCast_ab_ab1_apply _ _ r d 0)

/-- The reshaped shift array at `(r, d, 0)` is the shift argument at `(r, d)`. -/
theorem first_shift (r : Fin 8) (d : Fin 2048) :
    V1 m ρ c main_v1 (ix3 r d (0 : Fin 1)) = m ((c : Thread nD τ).loc main_arg5) (ix2 r d) := by
  have e : (V1 m ρ c main_v1 : S8x2048x1.Idx → EReal)
      = shapeCast S8x2048x1 (m ((c : Thread nD τ).loc main_arg5) : S8x2048.Idx → EReal) shapeCasts_S8x2048_S8x2048x1 := by
    show StableHlo.after hostOps0 (W0 m ρ c) (Proc.devRef .tc main_v1) = _
    after_results
    rfl
  exact (congrFun e _).trans (Cert.Lib.TrailingUnit.shapeCast_ab_ab1_apply _ _ r d 0)

/-! ## The weights the second region reads -/

/-- THE STANDARDISED WEIGHTS at the second region's entry: what the first region wrote, of the launch contents of
    the weight, scale and shift arguments. -/
theorem entry_weights :
    V2 m ρ c main_v2
      = Cert.Spec.rwNorm (m ((c : Thread nD τ).loc main_arg3)) (m ((c : Thread nD τ).loc main_arg4))
          (m ((c : Thread nD τ).loc main_arg5)) := by
  have hg : (fun j : S8x2048.Idx => V1 m ρ c main_v0 (ix3 (j 0) (j 1) (0 : Fin 1)))
      = m ((c : Thread nD τ).loc main_arg4) :=
    funext fun j => (first_scale m ρ c (j 0) (j 1)).trans (congrArg _ (eq_ix2 j).symm)
  have hc : (fun j : S8x2048.Idx => V1 m ρ c main_v1 (ix3 (j 0) (j 1) (0 : Fin 1)))
      = m ((c : Thread nD τ).loc main_arg5) :=
    funext fun j => (first_shift m ρ c (j 0) (j 1)).trans (congrArg _ (eq_ix2 j).symm)
  calc V2 m ρ c main_v2
    _ = (dat0 (F := Ideal) (V1 m ρ) c).arrAt 3 cfg0.N := W2_arr m ρ c 3
    _ = Cert.Spec.rwNorm (V1 m ρ c main_arg3) (fun j => V1 m ρ c main_v0 (ix3 (j 0) (j 1) (0 : Fin 1)))
          (fun j => V1 m ρ c main_v1 (ix3 (j 0) (j 1) (0 : Fin 1))) := Cert.KernelIdeal.WeightNorm.final (V1 m ρ) c
    _ = _ := congr (congr (congrArg Cert.Spec.rwNorm (first_weights m ρ c)) hg) hc

end Cert.KernelIdeal.Boundary

end
-- ==== Proof.KernelResults.lean ====
/-
  The idealized kernel's three results as functions of its seven arguments.

  The run leaves each result buffer at the last segment boundary's contents. Walking back through the boundaries: the
  second region's three output arrays are, entry by entry, `newX`, `logits` and `probs` of the arrays that region found
  when it was entered; of those, `x`, the two scale/shift tables and the bias table are still the launch arrays, and the
  standardised weights are what the first region wrote, `rwNorm` of the launch weight array and of the two tables the host
  recast with a trailing unit axis. So every result is the specification's function of the launch arrays.
-/
import proofs.«122798_j5222680232633_2_alg».proof.Proof.KernelRun
import proofs.«122798_j5222680232633_2_alg».proof.Proof.MainValue
import proofs.«122798_j5222680232633_2_alg».proof.Proof.Boundary

set_option maxRecDepth 16384

noncomputable section

namespace Cert.KernelIdeal.Results

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first result after the run: every row of `x` standardised, scaled and shifted router by router. -/
theorem newx_end (c : Dev nD) :
    W3 m ρ c (Proc.devRef .tc main_v3_0)
      = Cert.Spec.newX (m ((c.tc : Thread nD τ).loc main_arg0)) (m ((c.tc : Thread nD τ).loc main_arg1))
          (m ((c.tc : Thread nD τ).loc main_arg2)) := by
  refine (W3_arr m ρ c 5).trans ((MainValue.final_newx (V2 m ρ) c).trans ?_)
  rw [Boundary.entry_arg0 m ρ c, Boundary.entry_arg1 m ρ c, Boundary.entry_arg2 m ρ c]

/-- The second result: the rows times the standardised weights, plus the bias. -/
theorem logits_end (c : Dev nD) :
    W3 m ρ c (Proc.devRef .tc main_v3_1)
      = Cert.Spec.logits
          (Cert.Spec.newX (m ((c.tc : Thread nD τ).loc main_arg0)) (m ((c.tc : Thread nD τ).loc main_arg1))
            (m ((c.tc : Thread nD τ).loc main_arg2)))
          (Cert.Spec.rwNorm (m ((c.tc : Thread nD τ).loc main_arg3)) (m ((c.tc : Thread nD τ).loc main_arg4))
            (m ((c.tc : Thread nD τ).loc main_arg5)))
          (m ((c.tc : Thread nD τ).loc main_arg6)) := by
  refine (W3_arr m ρ c 6).trans ((MainValue.final_logits (V2 m ρ) c).trans ?_)
  rw [Boundary.entry_arg0 m ρ c, Boundary.entry_arg1 m ρ c, Boundary.entry_arg2 m ρ c, Boundary.entry_weights m ρ c,
    Boundary.entry_arg6 m ρ c]

/-- The third result: the softmax of every row of logits. -/
theorem probs_end (c : Dev nD) :
    W3 m ρ c (Proc.devRef .tc main_v3_2)
      = Cert.Spec.probs (Cert.Spec.logits
          (Cert.Spec.newX (m ((c.tc : Thread nD τ).loc main_arg0)) (m ((c.tc : Thread nD τ).loc main_arg1))
            (m ((c.tc : Thread nD τ).loc main_arg2)))
          (Cert.Spec.rwNorm (m ((c.tc : Thread nD τ).loc main_arg3)) (m ((c.tc : Thread nD τ).loc main_arg4))
            (m ((c.tc : Thread nD τ).loc main_arg5)))
          (m ((c.tc : Thread nD τ).loc main_arg6))) := by
  refine (W3_arr m ρ c 7).trans ((MainValue.final_probs (V2 m ρ) c).trans ?_)
  rw [Boundary.entry_arg0 m ρ c, Boundary.entry_arg1 m ρ c, Boundary.entry_arg2 m ρ c, Boundary.entry_weights m ρ c,
    Boundary.entry_arg6 m ρ c]

/-- Every weakly fair execution of the idealized kernel terminates without a fault, with its three results at the
    specification's functions of the launch arrays and its arguments unchanged. -/
theorem run : θ_run defs (onTc (τ := τ) (main (F := Ideal))) ⟨m, fun _ => 0, ρ⟩ (fun r => ∀ c : Dev nD,
      r.2.mem ((c.tc : Thread nD τ).loc main_v3_0)
        = Cert.Spec.newX (m ((c.tc : Thread nD τ).loc main_arg0)) (m ((c.tc : Thread nD τ).loc main_arg1))
            (m ((c.tc : Thread nD τ).loc main_arg2))
      ∧ r.2.mem ((c.tc : Thread nD τ).loc main_v3_1)
        = Cert.Spec.logits
            (Cert.Spec.newX (m ((c.tc : Thread nD τ).loc main_arg0)) (m ((c.tc : Thread nD τ).loc main_arg1))
              (m ((c.tc : Thread nD τ).loc main_arg2)))
            (Cert.Spec.rwNorm (m ((c.tc : Thread nD τ).loc main_arg3)) (m ((c.tc : Thread nD τ).loc main_arg4))
              (m ((c.tc : Thread nD τ).loc main_arg5)))
            (m ((c.tc : Thread nD τ).loc main_arg6))
      ∧ r.2.mem ((c.tc : Thread nD τ).loc main_v3_2)
        = Cert.Spec.probs (Cert.Spec.logits
            (Cert.Spec.newX (m ((c.tc : Thread nD τ).loc main_arg0)) (m ((c.tc : Thread nD τ).loc main_arg1))
              (m ((c.tc : Thread nD τ).loc main_arg2)))
            (Cert.Spec.rwNorm (m ((c.tc : Thread nD τ).loc main_arg3)) (m ((c.tc : Thread nD τ).loc main_arg4))
              (m ((c.tc : Thread nD τ).loc main_arg5)))
            (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun r h c => ⟨(h c).1.trans (newx_end m ρ c), (h c).2.1.trans (logits_end m ρ c),
      (h c).2.2.1.trans (probs_end m ρ c), (h c).2.2.2⟩)
    (Outputs.run m ρ)

end Cert.KernelIdeal.Results

end
-- ==== Proof.lean ====
/-
  A router: eight LayerNorms of a shared input, a weight-standardised gating product, bias and softmax.

  Both programs compute, from x [8192, 2048], two scale/shift tables [8, 2048], weights W [8, 2048, 128] with their own
  scale/shift tables [8, 2048] and a bias table [8, 128]:
    newX[r, n, d]   = (x[n, d] − mean_n) · (var_n + ε)^(−1/2) · w[r, d] + b[r, d]        (mean and variance over row n of x);
    rwNorm[r, d, a] = (W[r, d, a] − mean_{r,a}) · (var_{r,a} + ε)^(−1/2) · g[r, d] + c[r, d]   (over column a of W[r]);
    logits[r, n, a] = Σ_k newX[r, n, k] · rwNorm[r, k, a] + bias[r, a];
    probs[r, n, a]  = exp(logits[r, n, a] − M) / Σ_a' exp(logits[r, n, a'] − M),   M the maximum of the row from −∞.
  The kernel does this in two pipelined regions (the weights first, one router per grid point; then blocks of 128 rows of
  x, the eight routers in turn inside each block, the products in a narrower float format that is the identity on the
  extended reals); the reference does it on whole arrays, the weights through a transposition and back. On the extended
  reals both are literally the same composition of the same operations with the same constants, read in different
  layouts, so the two runs end at the same three arrays and no law of arithmetic (hence no finiteness of the inputs) is used:
    the specification ............................................. Proof/Spec.lean
    the reference's run is the specification ...................... Proof/RefValue.lean
    the first region's output array ............................... Proof/WeightNorm.lean
    one router's share of the second region's body ................ Proof/MainBody.lean, Proof/MainBlocks.lean
    the second region's three output arrays ....................... Proof/MainValue.lean
    the contents between the regions, and the kernel's run ........ Proof/Boundary.lean, Proof/KernelRun.lean, Proof/KernelResults.lean
  The three frames are the generated frame certificates (the reference's is its generated run with the results dropped);
  the idealization rewrote no operation, so there is nothing to preserve.
-/
import proofs.«122798_j5222680232633_2_alg».proof.Defs
import proofs.«122798_j5222680232633_2_alg».proof.Proof.Gen.Kernel
import proofs.«122798_j5222680232633_2_alg».proof.Proof.Gen.Kernel.Skeleton
import proofs.«122798_j5222680232633_2_alg».proof.Proof.Gen.Kernel.Launch
import proofs.«122798_j5222680232633_2_alg».proof.Proof.Gen.Kernel.Points
import proofs.«122798_j5222680232633_2_alg».proof.Proof.Gen.Kernel.Frame
import proofs.«122798_j5222680232633_2_alg».proof.Proof.Gen.KernelIdeal
import proofs.«122798_j5222680232633_2_alg».proof.Proof.Gen.KernelIdeal.Skeleton
import proofs.«122798_j5222680232633_2_alg».proof.Proof.Gen.KernelIdeal.Launch
import proofs.«122798_j5222680232633_2_alg».proof.Proof.Gen.KernelIdeal.Points
import proofs.«122798_j5222680232633_2_alg».proof.Proof.Gen.KernelIdeal.Frame
import proofs.«122798_j5222680232633_2_alg».proof.Proof.Gen.ReferenceIdeal
import proofs.«122798_j5222680232633_2_alg».proof.Proof.Gen.Pre_finite_inputs
import proofs.«122798_j5222680232633_2_alg».proof.Proof.Gen.ReferenceIdeal.Run
import proofs.«122798_j5222680232633_2_alg».proof.Proof.Gen.ReferenceIdeal.Read
import proofs.«122798_j5222680232633_2_alg».proof.Proof.RefValue
import proofs.«122798_j5222680232633_2_alg».proof.Proof.KernelResults
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the seven arguments, the kernel's run ends with its three results at `newX`, `logits` and
    `probs` of the launch arrays, and the reference's run ends with its three results at the same functions of its own
    launch arrays, which are the kernel's. -/
theorem algebraic : Cert.algebraic_KernelIdeal_ReferenceIdeal := by
  intro m ρ m' ρ' _ hagree
  refine ⟨_, _, _, Cert.KernelIdeal.Results.run m ρ, ?_⟩
  refine (θ_run Cert.ReferenceIdeal.defs _ _).mono (fun _ h c => ?_) (Cert.ReferenceIdeal.Value.run (F := Ideal) m' ρ')
  obtain ⟨h0, h1, h2, hargs⟩ := h c
  obtain ⟨a0, a1, a2, a3, a4, a5, a6⟩ := hagree c
  refine ⟨h0.trans ?_, h1.trans ?_, h2.trans ?_, hargs⟩
  · refine (Cert.ReferenceIdeal.Read.val_main_v25_eq _ _ _).trans ?_
    rw [Cert.RefValue.newx_eq, a0, a1, a2]
  · rw [Cert.ReferenceIdeal.Read.val_main_v55_eq, Cert.RefValue.logits_eq, a0, a1, a2, a3, a4, a5, a6]
  · rw [Cert.ReferenceIdeal.Read.val_main_v66_eq, Cert.RefValue.probs_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
